-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x2048 : Shape := ⟨3, ![8, 2048, 2048]⟩
abbrev S1x1024x1024 : Shape := ⟨3, ![1, 1024, 1024]⟩
abbrev S1x256x1024 : Shape := ⟨3, ![1, 256, 1024]⟩
abbrev S1x1024x2048 : Shape := ⟨3, ![1, 1024, 2048]⟩
abbrev S1024x1 : Shape := ⟨2, ![1024, 1]⟩
abbrev S1024x1024 : Shape := ⟨2, ![1024, 1024]⟩
abbrev S256x1024 : Shape := ⟨2, ![256, 1024]⟩
abbrev S1024x256 : Shape := ⟨2, ![1024, 256]⟩
abbrev S1024 : Shape := ⟨1, ![1024]⟩

abbrev nBuf : Space → Nat
  | .hbm => 3
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c7_i32 : BitVec 32 := 7#32
  let v39 : BitVec 1 := Scalar.cmpi .eq arg2 c7_i32
  let v40 : BitVec 32 := Scalar.extui v39
  let c0_i32_23 : BitVec 32 := 0#32
  let v41 : BitVec 1 := Scalar.cmpi .ne v40 c0_i32_23
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x2048_S1x1024x1024_0_0_0 : ∀ a, (![0, 0, 0] : Fin 3 → Nat) a + S1x1024x1024.size a ≤ S1x1024x2048.size a
  shapeCasts_S1024x1024_S1x1024x1024 : S1024x1024.ShapeCasts S1x1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  broadcasts_S1024x1_S1024x1024 : S1024x1.Broadcasts S1024x1024
  inb_S1x1024x2048_S1x1024x1024_0_0_1024 : ∀ a, (![0, 0, 1024] : Fin 3 → Nat) a + S1x1024x1024.size a ≤ S1x1024x2048.size a
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x2048x1024.size a
  hwx0_1 : ∀ i : grid0.Coords, EltTy.bits .f32 = 32 ∨ (Rect.block (s := S8x2048x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x1024, .f32⟩
  | .hbm, ⟨18, _⟩ => ⟨S8x2048x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  concatenates_S8x2048x1024_S8x2048x1024_S8x2048x2048_d2 : Shape.Concatenates [S8x2048x1024, S8x2048x1024] S8x2048x2048 2
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BodyW.Shared.lean ====
/-
  What the three control cases of the attention body share.

  The grid is (batch, query tile, key tile) = (8, 2, 8), the key tile innermost: point `t` has key tile `t % 8`.
  The body's first conditional (initialise the running cells, copy the query block into the first half of the
  output block) is taken exactly at key tile 0, its second (divide and store the second half) exactly at key tile 7.
  The two input windows are never idle: the body reads both at every point. The three running cells are whole
  scratch buffers of the body's own.
-/
import proofs.«102668_j30167850287543_2_alg».proof.Proof.Gen.Kernel.Frame
import proofs.«102668_j30167850287543_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The point is the first key tile of its (batch, query tile): the body initialises its running cells. -/
abbrev isFirst (i : grid0.Coords) : Prop := k0_cond1 i = 1#1
/-- The point is the last key tile: the body divides and stores the attention half of the output block. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)

theorem isLast_iff : ∀ t : Fin cfg0.N, isLast (grid0.coords t) ↔ t.val % 8 = 7 :=
  (by decide +kernel : ∀ t : Fin grid0.N, isLast (grid0.coords t) ↔ t.val % 8 = 7)

/-- The input windows are never idle. -/
theorem live_x : ∀ t : Fin cfg0.N, cfg0.idle 0 (grid0.coords t) = false := by decide +kernel
theorem live_y : ∀ t : Fin cfg0.N, cfg0.idle 1 (grid0.coords t) = false := by decide +kernel

/-- The staging memref each window is on at point `t`, as the pipeline passes it to the body. -/
abbrev bufX (t : Fin cfg0.N) : Memref sig .tc .vmem S1x1024x1024 .f32 := win0_0.stage (cfg0.slots t 0)
abbrev bufX_whole (t : Fin cfg0.N) : (bufX t).IsWhole := hstage0_0 ((cfg0.slots t 0).cast nbuf0_0)
abbrev bufY (t : Fin cfg0.N) : Memref sig .tc .vmem S1x256x1024 .f32 := win0_1.stage (cfg0.slots t 1)
abbrev bufY_whole (t : Fin cfg0.N) : (bufY t).IsWhole := hstage0_1 ((cfg0.slots t 1).cast nbuf0_1)
abbrev bufO (t : Fin cfg0.N) : Memref sig .tc .vmem S1x1024x2048 .f32 := win0_2.stage (cfg0.slots t 2)
abbrev bufO_whole (t : Fin cfg0.N) : (bufO t).IsWhole := hstage0_2 ((cfg0.slots t 2).cast nbuf0_2)

/-- The running maximum, running denominator and running numerator cells. -/
abbrev cellM : Memref sig .tc .vmem S1024x1 .f32 := Memref.whole cc0_scratch0
abbrev cellL : Memref sig .tc .vmem S1024x1 .f32 := Memref.whole cc0_scratch1
abbrev cellA : Memref sig .tc .vmem S1024x1024 .f32 := Memref.whole cc0_scratch2

/-- What the launch hands the region beside the windows: the three cells, each owned at some contents, and the
    generator register. -/
theorem entryInv_eq (c : Dev nD) :
    (Pipeline.ΦA spec0 c : sProp 𝕄)
      = iprop(iprop((∃ d, owns (c : Thread nD τ) cellM fullShare d) ∗ (∃ d, owns (c : Thread nD τ) cellL fullShare d)
          ∗ (∃ d, owns (c : Thread nD τ) cellA fullShare d)) ∗ (∃ r, prngReg c r)) := by
  unfold Pipeline.ΦA; rw [scopedRest0_eq]; simp only [cellM, cellL, cellA, owns_whole]; try rfl

end Cert.Kernel.Body

end
-- ==== Proof.BodyW.Cells.lean ====
/-
  What one run of the attention body leaves, as pure functions of what it loads.

  The running cells after a FIRST key tile depend only on the query block `x0` and the key tile `x1`: the body
  stores -inf, 0, 0 and then performs the same update as at every other tile. After any other tile they are the same
  update of the cells the tile before left. The output block gets its first 1024 features (the query block itself)
  at a first tile and its last 1024 features (running numerator over running denominator) at a last tile; all other
  entries of the block are left as found.
-/
import proofs.«102668_j30167850287543_2_alg».proof.Proof.BodyW.Shared
import Idealize.ShloMosaic.Lib.ValueIdx
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

/-- The three running cells: maximum, denominator, numerator. -/
abbrev Cells (F : FTy → Type) [FloatOps F] : Type := Vec F S1024x1 .f32 × Vec F S1024x1 .f32 × Vec F S1024x1024 .f32

/-- One tile's update of the cells `(mo, lo, ao)` by query block `x0` and key tile `x1`. -/
def cellsNext (x0 : Vec F S1x1024x1024 .f32) (x1 : Vec F S1x256x1024 .f32) (s : Cells F) : Cells F :=
  (k0_pay2 (k0_pay10 x0 x1 s.1), k0_pay13 x0 x1 s.1 s.1 s.2.1, k0_pay1 (k0_pay14 x0 x1 s.1 s.1 s.2.2))

/-- The cells as the body initialises them at a first key tile: -inf, 0, 0. -/
def cellsInit : Cells F := (k0_pay4, k0_pay5, k0_pay6)

/-- The cells after a first key tile. -/
def cellsFirst (x0 : Vec F S1x1024x1024 .f32) (x1 : Vec F S1x256x1024 .f32) : Cells F := cellsNext x0 x1 cellsInit

/-- The output block after a first key tile that found it at `y5`: the query block in features below 1024. -/
def outFirst (x0 : Vec F S1x1024x1024 .f32) (y5 : Vec F S1x1024x2048 .f32) : Vec F S1x1024x2048 .f32 := fun o =>
  if h : (o 2).val < 1024 then k0_pay7 x0 (ix3 (n0 := 1) (n1 := 1024) (n2 := 1024) (o 0) (o 1) ⟨(o 2).val, h⟩) else y5 o

/-- The output block after a last key tile that found it at `y5`, the cells then at `s`: numerator over denominator
    in features from 1024 on. -/
def outLast (s : Cells F) (y5 : Vec F S1x1024x2048 .f32) : Vec F S1x1024x2048 .f32 := fun o =>
  if h : (o 2).val < 1024 then y5 o
  else k0_pay3 s.2.2 s.2.1 (ix3 (n0 := 1) (n1 := 1024) (n2 := 1024) (o 0) (o 1)
    ⟨(o 2).val - 1024, by have h2 : (o 2).val < 2048 := (o 2).isLt; omega⟩)

/-- The zero offsets of a rank-2 and of a rank-3 rectangle are the constant function. -/
theorem zero2 : (![0, 0] : Fin 2 → ℕ) = fun _ => 0 := by funext a; fin_cases a <;> rfl
theorem zero3 : (![0, 0, 0] : Fin 3 → ℕ) = fun _ => 0 := by funext a; fin_cases a <;> rfl

/-- A store through the whole-shape rectangle, last, leaves its payload, whatever was stored before. -/
theorem read_head_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  exact View.read_writes_cons_unit_of_mem v f inb w L y y rfl (fun a => (Nat.zero_add _).symm)

end Cert.Kernel.Body

end
-- ==== Proof.BodyW.CaseFirst.lean ====
/-
  The attention body run at a FIRST key tile of a (batch, query tile): it initialises the running cells to
  (-inf, 0, 0), copies the query block into the first half of the output block, and performs one update.
-/
import proofs.«102668_j30167850287543_2_alg».proof.Proof.BodyW.Cells

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

set_option maxHeartbeats 2000000 in
/-- On whole staging memrefs — the inputs at `x0`, `x1`, the output block at `y5`, the cells at anything — the body
    runs to the inputs as they were, the output block with the query block in its first 1024 features and the rest
    as found, and the cells at one update of (-inf, 0, 0). -/
theorem bodyFirst (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : isFirst i) (hc1 : ¬isLast i)
    (x0 : Vec F S1x1024x1024 .f32) (x1 : Vec F S1x256x1024 .f32) (y5 : Vec F S1x1024x2048 .f32) (E : Set ℕ) (K : PUnit → sProp 𝕄) :
    iprop(owns (c : Thread nD τ) arg3 fullShare x0 ∗ owns (c : Thread nD τ) arg4 fullShare x1 ∗ owns (c : Thread nD τ) arg5 fullShare y5 ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg3 fullShare x0 ∗ owns (c : Thread nD τ) arg4 fullShare x1 ∗ owns (c : Thread nD τ) arg5 fullShare (outFirst x0 y5) ∗ owns (c : Thread nD τ) arg6 fullShare (cellsFirst x0 x1).1 ∗ owns (c : Thread nD τ) arg7 fullShare (cellsFirst x0 x1).2.1 ∗ owns (c : Thread nD τ) arg8 fullShare (cellsFirst x0 x1).2.2) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f5, %hf5, H5⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr; swap; · iexact H5
    ipureintro
    funext o
    unfold outFirst
    by_cases h : (o 2).val < 1024
    · rw [dif_pos h]
      refine (View.read_writes_cons_unit_of_mem arg5.view _ inb_S1x1024x2048_S1x1024x1024_0_0_0 _ [] o
        (ix3 (n0 := 1) (n1 := 1024) (n2 := 1024) (o 0) (o 1) ⟨(o 2).val, h⟩) rfl (fun a => ?_)).trans ?_
      · match a with
        | ⟨0, _⟩ => exact (Nat.zero_add _).symm
        | ⟨1, _⟩ => exact (Nat.zero_add _).symm
        | ⟨2, _⟩ => exact (Nat.zero_add _).symm
      · simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
    · rw [dif_neg h]
      refine (View.read_writes_cons_unit_of_not_mem arg5.view _ inb_S1x1024x2048_S1x1024x1024_0_0_0 _ [] o rfl 2 (Or.inr ?_)).trans ?_
      · show 0 + 1024 ≤ (o 2).val
        omega
      · rw [View.writes_nil]; exact congrFun hf5 o
  isplitl [HS0]
  · iexists _; isplitr; swap; · iexact HS0
    ipureintro
    refine (read_head_whole arg6.view fs0 zero2 _ _ _).trans ?_
    show _ = k0_pay2 (k0_pay10 x0 x1 k0_pay4)
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS1]
  · iexists _; isplitr; swap; · iexact HS1
    ipureintro
    refine (read_head_whole arg7.view fs1 zero2 _ _ _).trans ?_
    show _ = k0_pay13 x0 x1 k0_pay4 k0_pay4 k0_pay5
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  iexists _; isplitr; swap; · iexact HS2
  ipureintro
  refine (read_head_whole arg8.view fs2 zero2 _ _ _).trans ?_
  show _ = k0_pay1 (k0_pay14 x0 x1 k0_pay4 k0_pay4 k0_pay6)
  sl_unfold_run_names
  simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]

end Cert.Kernel.Body

end
-- ==== Proof.BodyW.CaseMid.lean ====
/-
  The attention body run at a key tile that is neither the first nor the last: one update of the running cells;
  the output block is not touched.
-/
import proofs.«102668_j30167850287543_2_alg».proof.Proof.BodyW.Cells

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

set_option maxHeartbeats 2000000 in
/-- On whole staging memrefs — the inputs at `x0`, `x1`, the output block at `y5`, the cells at `s` — the body runs to
    the inputs and the output block as they were and the cells at one update of `s`. -/
theorem bodyMid (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬isFirst i) (hc1 : ¬isLast i)
    (x0 : Vec F S1x1024x1024 .f32) (x1 : Vec F S1x256x1024 .f32) (y5 : Vec F S1x1024x2048 .f32) (s : Cells F) (E : Set ℕ) (K : PUnit → sProp 𝕄) :
    iprop(owns (c : Thread nD τ) arg3 fullShare x0 ∗ owns (c : Thread nD τ) arg4 fullShare x1 ∗ owns (c : Thread nD τ) arg5 fullShare y5 ∗ owns (c : Thread nD τ) arg6 fullShare s.1 ∗ owns (c : Thread nD τ) arg7 fullShare s.2.1 ∗ owns (c : Thread nD τ) arg8 fullShare s.2.2
      ∗ (iprop(owns (c : Thread nD τ) arg3 fullShare x0 ∗ owns (c : Thread nD τ) arg4 fullShare x1 ∗ owns (c : Thread nD τ) arg5 fullShare y5 ∗ owns (c : Thread nD τ) arg6 fullShare (cellsNext x0 x1 s).1 ∗ owns (c : Thread nD τ) arg7 fullShare (cellsNext x0 x1 s).2.1 ∗ owns (c : Thread nD τ) arg8 fullShare (cellsNext x0 x1 s).2.2) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf5
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr; swap; · iexact H5
    ipureintro
    exact harg5.read_unread _
  isplitl [HS0]
  · iexists _; isplitr; swap; · iexact HS0
    ipureintro
    refine (read_head_whole arg6.view _ zero2 _ _ _).trans ?_
    show _ = k0_pay2 (k0_pay10 x0 x1 s.1)
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS1]
  · iexists _; isplitr; swap; · iexact HS1
    ipureintro
    refine (read_head_whole arg7.view _ zero2 _ _ _).trans ?_
    show _ = k0_pay13 x0 x1 s.1 s.1 s.2.1
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  iexists _; isplitr; swap; · iexact HS2
  ipureintro
  refine (read_head_whole arg8.view _ zero2 _ _ _).trans ?_
  show _ = k0_pay1 (k0_pay14 x0 x1 s.1 s.1 s.2.2)
  sl_unfold_run_names
  simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]

end Cert.Kernel.Body

end
-- ==== Proof.BodyW.CaseLast.lean ====
/-
  The attention body run at the LAST key tile: one update of the running cells, then the running numerator divided
  by the running denominator is stored into the second half of the output block.
-/
import proofs.«102668_j30167850287543_2_alg».proof.Proof.BodyW.Cells

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

set_option maxHeartbeats 2000000 in
/-- On whole staging memrefs — the inputs at `x0`, `x1`, the output block at `y5`, the cells at `s` — the body runs to
    the inputs as they were, the cells at one update of `s`, and the output block with the updated numerator over
    the updated denominator in features from 1024 on, the rest as found. -/
theorem bodyLast (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬isFirst i) (hc1 : isLast i)
    (x0 : Vec F S1x1024x1024 .f32) (x1 : Vec F S1x256x1024 .f32) (y5 : Vec F S1x1024x2048 .f32) (s : Cells F) (E : Set ℕ) (K : PUnit → sProp 𝕄) :
    iprop(owns (c : Thread nD τ) arg3 fullShare x0 ∗ owns (c : Thread nD τ) arg4 fullShare x1 ∗ owns (c : Thread nD τ) arg5 fullShare y5 ∗ owns (c : Thread nD τ) arg6 fullShare s.1 ∗ owns (c : Thread nD τ) arg7 fullShare s.2.1 ∗ owns (c : Thread nD τ) arg8 fullShare s.2.2
      ∗ (iprop(owns (c : Thread nD τ) arg3 fullShare x0 ∗ owns (c : Thread nD τ) arg4 fullShare x1 ∗ owns (c : Thread nD τ) arg5 fullShare (outLast (cellsNext x0 x1 s) y5) ∗ owns (c : Thread nD τ) arg6 fullShare (cellsNext x0 x1 s).1 ∗ owns (c : Thread nD τ) arg7 fullShare (cellsNext x0 x1 s).2.1 ∗ owns (c : Thread nD τ) arg8 fullShare (cellsNext x0 x1 s).2.2) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf5
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr; swap; · iexact H5
    ipureintro
    funext o
    unfold outLast
    by_cases h : (o 2).val < 1024
    · rw [dif_pos h]
      refine (View.read_writes_cons_unit_of_not_mem arg5.view _ inb_S1x1024x2048_S1x1024x1024_0_0_1024 _ [] o rfl 2 (Or.inl ?_)).trans ?_
      · show (o 2).val < 1024
        exact h
      · rw [View.writes_nil]; exact congrFun (harg5.read_unread y5) o
    · rw [dif_neg h]
      have h2 : (o 2).val < 2048 := (o 2).isLt
      refine (View.read_writes_cons_unit_of_mem arg5.view _ inb_S1x1024x2048_S1x1024x1024_0_0_1024 _ [] o
        (ix3 (n0 := 1) (n1 := 1024) (n2 := 1024) (o 0) (o 1) ⟨(o 2).val - 1024, by omega⟩) rfl (fun a => ?_)).trans ?_
      · match a with
        | ⟨0, _⟩ => exact (Nat.zero_add _).symm
        | ⟨1, _⟩ => exact (Nat.zero_add _).symm
        | ⟨2, _⟩ =>
          show (o 2).val = 1024 + ((o 2).val - 1024)
          omega
      · show _ = k0_pay3 (k0_pay1 (k0_pay14 x0 x1 s.1 s.1 s.2.2)) (k0_pay13 x0 x1 s.1 s.1 s.2.1) _
        sl_unfold_run_names
        simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS0]
  · iexists _; isplitr; swap; · iexact HS0
    ipureintro
    refine (read_head_whole arg6.view _ zero2 _ _ _).trans ?_
    show _ = k0_pay2 (k0_pay10 x0 x1 s.1)
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS1]
  · iexists _; isplitr; swap; · iexact HS1
    ipureintro
    refine (read_head_whole arg7.view _ zero2 _ _ _).trans ?_
    show _ = k0_pay13 x0 x1 s.1 s.1 s.2.1
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  iexists _; isplitr; swap; · iexact HS2
  ipureintro
  refine (read_head_whole arg8.view _ zero2 _ _ _).trans ?_
  show _ = k0_pay1 (k0_pay14 x0 x1 s.1 s.1 s.2.2)
  sl_unfold_run_names
  simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]

end Cert.Kernel.Body

end
-- ==== Proof.BodyW.Data.lean ====
/-
  The proof data of the attention pipeline, and the body's obligation against them.

  The running cells after the body at grid position `n` are a recursion on `n`: at a first key tile one update of
  (-inf, 0, 0) by the point's query block and key tile, elsewhere one update of the cells the position before left.
  The invariant between points owns the three cells at exactly these contents (before the first point: at anything).

  The two inputs' staging buffers hold their blocks at every point. Of the output's staging buffer the data state a
  RELATION between what the body finds and what it leaves: at a first key tile the query block is written into features
  below 1024, at a last key tile numerator over denominator into features from 1024 on, and every other entry — and, at
  the tiles in between, the whole buffer — is left as found. Nothing names what the buffer holds before the first
  store into it.
-/
import proofs.«102668_j30167850287543_2_alg».proof.Proof.BodyW.CaseFirst
import proofs.«102668_j30167850287543_2_alg».proof.Proof.BodyW.CaseMid
import proofs.«102668_j30167850287543_2_alg».proof.Proof.BodyW.CaseLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The query block and the key tile of point `t`, read off the argument arrays. -/
abbrev xAt (c : Dev nD) (t : Fin cfg0.N) : Vec F S1x1024x1024 .f32 := iblk m c 0 t
abbrev yAt (c : Dev nD) (t : Fin cfg0.N) : Vec F S1x256x1024 .f32 := iblk m c 1 t

/-- The running cells after the body at position `n`. -/
def cellsAt (c : Dev nD) : (n : ℕ) → n < cfg0.N → Cells F
  | 0, hn => cellsFirst (xAt m c ⟨0, hn⟩) (yAt m c ⟨0, hn⟩)
  | n + 1, hn =>
    if (n + 1) % 8 = 0 then cellsFirst (xAt m c ⟨n + 1, hn⟩) (yAt m c ⟨n + 1, hn⟩)
    else cellsNext (xAt m c ⟨n + 1, hn⟩) (yAt m c ⟨n + 1, hn⟩) (cellsAt c n (Nat.lt_of_succ_lt hn))

theorem cellsAt_first (c : Dev nD) (t : Fin cfg0.N) (h : t.val % 8 = 0) :
    cellsAt m c t.val t.isLt = cellsFirst (xAt m c t) (yAt m c t) := by
  obtain ⟨n, hn⟩ := t
  cases n with
  | zero => rfl
  | succ n => exact (if_pos h).trans rfl

theorem cellsAt_next (c : Dev nD) (t : Fin cfg0.N) (h : ¬t.val % 8 = 0) :
    cellsAt m c t.val t.isLt
      = cellsNext (xAt m c t) (yAt m c t) (cellsAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before position `n`: before the first point what the launch hands over (the cells at anything);
    afterwards the cells at what the position before left, and the generator register at some state. -/
def Inv (c : Dev nD) : (n : ℕ) → n ≤ cfg0.N → sProp 𝕄
  | 0, _ => Pipeline.ΦA spec0 c
  | n + 1, hn => iprop(iprop(owns (c : Thread nD τ) cellM fullShare (cellsAt m c n hn).1
      ∗ owns (c : Thread nD τ) cellL fullShare (cellsAt m c n hn).2.1
      ∗ owns (c : Thread nD τ) cellA fullShare (cellsAt m c n hn).2.2) ∗ (∃ r, prngReg c r))

theorem Inv_succ (c : Dev nD) (n : ℕ) (hn : n < cfg0.N) :
    Inv m c (n + 1) hn = iprop(iprop(owns (c : Thread nD τ) cellM fullShare (cellsAt m c n hn).1
      ∗ owns (c : Thread nD τ) cellL fullShare (cellsAt m c n hn).2.1
      ∗ owns (c : Thread nD τ) cellA fullShare (cellsAt m c n hn).2.2) ∗ (∃ r, prngReg c r)) := rfl

theorem Inv_pos (c : Dev nD) (n : ℕ) (h : n ≤ cfg0.N) (hz : n ≠ 0) :
    Inv m c n h = iprop(iprop(owns (c : Thread nD τ) cellM fullShare (cellsAt m c (n - 1) (by omega)).1
      ∗ owns (c : Thread nD τ) cellL fullShare (cellsAt m c (n - 1) (by omega)).2.1
      ∗ owns (c : Thread nD τ) cellA fullShare (cellsAt m c (n - 1) (by omega)).2.2) ∗ (∃ r, prngReg c r)) := by
  cases n with
  | zero => exact absurd rfl hz
  | succ n => rfl

/-- At every position the invariant yields the cells at SOME contents: what the launch handed over. -/
theorem Inv_forget (c : Dev nD) (n : ℕ) (h : n ≤ cfg0.N) : Inv m c n h ⊢ Pipeline.ΦA spec0 c := by
  cases n with
  | zero => exact Idealize.SL.BI.Entails.refl _
  | succ n =>
    rw [Inv_succ, entryInv_eq]
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-- The exact part of the data: the arrays as the region finds them, each input's buffer left at its block, full
    shares, nothing owed. (What it says of the output window is replaced below.) -/
def exact (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := Inv m c t.val (Nat.le_of_lt_succ t.isLt)
  q _ := fullShare
  owed _ := 0

theorem exact_A (c : Dev nD) (w : Fin cfg0.W) : (exact m c).A w = V m c (Pipeline.arrRef spec0 w) := by
  dsimp only [exact]
theorem exact_after_x (c : Dev nD) (t : Fin cfg0.N) : (exact m c).after 0 t = iblk m c 0 t := by dsimp only [exact]
theorem exact_after_y (c : Dev nD) (t : Fin cfg0.N) : (exact m c).after 1 t = iblk m c 1 t := by dsimp only [exact]

/-- What the body leaves in the output's staging buffer (`X`) given what it found there (`Y`). -/
def outRel (c : Dev nD) (t : Fin cfg0.N) (Y X : Vec F S1x1024x2048 .f32) : Prop :=
  X = if t.val % 8 = 0 then outFirst (xAt m c t) Y
      else if t.val % 8 = 7 then outLast (cellsAt m c t.val t.isLt) Y else Y

/-- The output window's relation replaces the exact data's; the inputs keep theirs. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (outRel m c)

/-- The proof data, relational in the output window. -/
def rel (c : Dev nD) : RDat τ (Elt F) Unit ℕ (UR sig nD τ) ℕ cfg0 c := (exact m c).toR.override (ovr m c)

theorem rel_A (c : Dev nD) (w : Fin cfg0.W) : (rel m c).A w = V m c (Pipeline.arrRef spec0 w) := exact_A m c w

theorem rel_after_out (c : Dev nD) : (rel m c).after 2 = outRel m c :=
  (exact m c).toR.override_after_of_eq_some (ovr := ovr m c) rfl

/-- The body finds each input's staging buffer at the point's block. -/
theorem finds_x (c : Dev nD) (t : Fin cfg0.N) (Y) (h : (rel m c).Finds 0 t Y) : Y = iblk m c 0 t := by
  obtain ⟨d, rfl⟩ := (exact m c).toR_finds 0 t Y (((exact m c).toR.override_finds (ovr := ovr m c) rfl t Y).mp h)
  exact before0_0_of m (exact m c) (exact_A m c 0) (exact_after_x m c) t d
theorem finds_y (c : Dev nD) (t : Fin cfg0.N) (Y) (h : (rel m c).Finds 1 t Y) : Y = iblk m c 1 t := by
  obtain ⟨d, rfl⟩ := (exact m c).toR_finds 1 t Y (((exact m c).toR.override_finds (ovr := ovr m c) rfl t Y).mp h)
  exact before0_1_of m (exact m c) (exact_A m c 1) (exact_after_y m c) t d

/-- and may leave it there. -/
theorem after_x (c : Dev nD) (t : Fin cfg0.N) (Y) : (rel m c).after 0 t Y (iblk m c 0 t) := by
  rw [show (rel m c).after 0 = (exact m c).toR.after 0 from (exact m c).toR.override_after_of_eq_none (ovr := ovr m c) rfl]
  show (exact m c).Leaves 0 t (iblk m c 0 t)
  exact (Dat.Leaves.live_iff (exact m c) (.inl (live_x t))).mpr (exact_after_x m c t).symm
theorem after_y (c : Dev nD) (t : Fin cfg0.N) (Y) : (rel m c).after 1 t Y (iblk m c 1 t) := by
  rw [show (rel m c).after 1 = (exact m c).toR.after 1 from (exact m c).toR.override_after_of_eq_none (ovr := ovr m c) rfl]
  show (exact m c).Leaves 1 t (iblk m c 1 t)
  exact (Dat.Leaves.live_iff (exact m c) (.inl (live_y t))).mpr (exact_after_y m c t).symm

end Cert.Kernel.Body

end
-- ==== Proof.BodyW.Obligation.lean ====
/-
  The body's obligation against the relational data, the run of @main, and the frame.

  At every point the two inputs' buffers hold the point's blocks, so one of the three case runs applies: which one is
  decided by the key tile `t % 8`. The invariant hands the run the cells at what the point before left (at a first
  key tile their contents do not matter) and takes them back at this point's contents; the output's buffer comes back
  in the relation the data state. With the obligation, the launch theorem for relational data gives a run of @main
  after which every windowed array holds SOME contents the write-backs allow — for an input, its entry contents.
-/
import proofs.«102668_j30167850287543_2_alg».proof.Proof.BodyW.Data

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4000000 in
/-- The body obligation of the relational data, at every point. -/
theorem obligation (c : Dev nD) : (rel m c).BodyObligation (defs₀ (F := F)) Variants.none () Set.univ := fun t Y hY => by
  have hx : Y 0 = iblk m c 0 t := finds_x m c t (Y 0) (hY 0)
  have hy : Y 1 = iblk m c 1 t := finds_y m c t (Y 1) (hY 1)
  rw [bigSep_W0, bigSep_W0, hx, hy]
  rw [show (rel m c).owesAt () t.succ = (rel m c).owesAt () t.castSucc from rfl]
  rw [show (rel m c).Φ t.succ = Inv m c (t.val + 1) t.isLt from rfl, Inv_succ]
  rw [show (rel m c).Φ t.castSucc = Inv m c t.val (Nat.le_of_lt t.isLt) from rfl]
  show _ ⊢ wp frame (wpE (defs₀ (F := F)) Variants.none c none) Set.univ (bodyAt0 t) _
  have hN : t.val < 128 := lt_of_lt_of_eq t.isLt (show cfg0.N = 128 from N_0)
  by_cases h0 : t.val % 8 = 0
  · have hc0 : isFirst (grid0.coords t) := (isFirst_iff t).mpr h0
    have hc1 : ¬isLast (grid0.coords t) := fun h => by have := (isLast_iff t).mp h; omega
    rw [cellsAt_first m c t h0]
    refine (BIClass.sep_mono (Inv_forget m c _ _) .rfl).trans ?_
    rw [entryInv_eq]
    iintro ⟨⟨⟨HS0, HS1, HS2⟩, Hg⟩, Ho, H0, H1, H2⟩
    iapply (bodyFirst c (grid0.coords t) _ _ _ _ _ _ _ _ _ _ _ _ hc0 hc1 (iblk m c 0 t) (iblk m c 1 t) (Y 2) Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]
    · iexists _; isplitr; swap; · iexact H0
      ipureintro; exact after_x m c t _
    isplitl [H1]
    · iexists _; isplitr; swap; · iexact H1
      ipureintro; exact after_y m c t _
    iexists _; isplitr; swap; · iexact H2
    ipureintro
    rw [rel_after_out]; unfold outRel
    rw [if_pos h0]
  · have hc0 : ¬isFirst (grid0.coords t) := fun h => h0 ((isFirst_iff t).mp h)
    have hz : t.val ≠ 0 := fun e => h0 (by rw [e])
    rw [cellsAt_next m c t h0, Inv_pos m c _ _ hz]
    by_cases h1 : t.val % 8 = 7
    · have hc1 : isLast (grid0.coords t) := (isLast_iff t).mpr h1
      iintro ⟨⟨⟨HS0, HS1, HS2⟩, Hg⟩, Ho, H0, H1, H2⟩
      iapply (bodyLast c (grid0.coords t) _ _ _ _ _ _ _ _ _ _ _ _ hc0 hc1 (iblk m c 0 t) (iblk m c 1 t) (Y 2)
        (cellsAt m c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]
      · iexists _; isplitr; swap; · iexact H0
        ipureintro; exact after_x m c t _
      isplitl [H1]
      · iexists _; isplitr; swap; · iexact H1
        ipureintro; exact after_y m c t _
      iexists _; isplitr; swap; · iexact H2
      ipureintro
      rw [rel_after_out]; unfold outRel
      rw [if_neg h0, if_pos h1, cellsAt_next m c t h0]
    · have hc1 : ¬isLast (grid0.coords t) := fun h => h1 ((isLast_iff t).mp h)
      iintro ⟨⟨⟨HS0, HS1, HS2⟩, Hg⟩, Ho, H0, H1, H2⟩
      iapply (bodyMid c (grid0.coords t) _ _ _ _ _ _ _ _ _ _ _ _ hc0 hc1 (iblk m c 0 t) (iblk m c 1 t) (Y 2)
        (cellsAt m c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]
      · iexists _; isplitr; swap; · iexact H0
        ipureintro; exact after_x m c t _
      isplitl [H1]
      · iexists _; isplitr; swap; · iexact H1
        ipureintro; exact after_y m c t _
      iexists _; isplitr; swap; · iexact H2
      ipureintro
      rw [rel_after_out]; unfold outRel
      rw [if_neg h0, if_neg h1]

/-- What the launch hands the region is the invariant before the first point, -/
theorem inv_in (c : Dev nD) : Pipeline.ΦA spec0 c ⊢ (rel m c).Φ 0 := Idealize.SL.BI.Entails.refl _

/-- and after the last point the invariant gives it back. -/
theorem inv_out (c : Dev nD) : (rel m c).Φ (Fin.last cfg0.N) ⊢ Pipeline.ΦA spec0 c := by
  rw [show (rel m c).Φ (Fin.last cfg0.N) = Inv m c (Fin.last cfg0.N).val (Nat.le_of_lt_succ (Fin.last cfg0.N).isLt) from rfl]
  exact Inv_forget m c _ _

set_option backward.isDefEq.respectTransparency.types false in
/-- Every weakly fair execution of @main terminates, and in every final state each windowed array holds some contents
    the relational data allow after every write-back, every other unscoped buffer what it held at entry. -/
theorem run_rel : θ_run defs (onTc (τ := τ) (main (F := F))) (s₀ m ρ)
    (Pipeline.RDat.FramePost (cfgs 0) (fun c => rel m c) (V m)) :=
  Pipeline.RDat.θ_run_frame_track cfgs (0 : Fin 1) launch0 defs₀ Variants.none (fun c => rel m c) m ρ main
    (hbody := fun c => obligation m c) (hshare := fun c w => by unfold RDat.share; exact ite_self _)
    (howed := fun _ _ => rfl) (V := V m) (hmain := hmain m Variants.none) (hA := rel_A m) (hin := inv_in m) (hout := inv_out m)

/-- The frame: the argument arrays end as they began (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun ((rel m c).ArrAt_in 0 rfl _) _) ((h c).1 0)).trans ((rel_A m c 0).trans (V_main_arg0 m c)),
     (Eq.mp (congrFun ((rel m c).ArrAt_in 1 rfl _) _) ((h c).1 1)).trans ((rel_A m c 1).trans (V_main_arg1 m c))⟩) (run_rel m ρ)

end Cert.Kernel.Body

end
-- ==== Proof.BodyI.Shared.lean ====
/-
  What the three control cases of the attention body share.

  The grid is (batch, query tile, key tile) = (8, 2, 8), the key tile innermost: point `t` has key tile `t % 8`.
  The body's first conditional (initialise the running cells, copy the query block into the first half of the
  output block) is taken exactly at key tile 0, its second (divide and store the second half) exactly at key tile 7.
  The two input windows are never idle: the body reads both at every point. The three running cells are whole
  scratch buffers of the body's own.
-/
import proofs.«102668_j30167850287543_2_alg».proof.Proof.Gen.KernelIdeal.Frame
import proofs.«102668_j30167850287543_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The point is the first key tile of its (batch, query tile): the body initialises its running cells. -/
abbrev isFirst (i : grid0.Coords) : Prop := k0_cond1 i = 1#1
/-- The point is the last key tile: the body divides and stores the attention half of the output block. -/
abbrev isLast (i : grid0.Coords) : Prop := k0_cond2 i = 1#1

theorem isFirst_iff : ∀ t : Fin cfg0.N, isFirst (grid0.coords t) ↔ t.val % 8 = 0 :=
  (by decide +kernel : ∀ t : Fin grid0.N, isFirst (grid0.coords t) ↔ t.val % 8 = 0)

theorem isLast_iff : ∀ t : Fin cfg0.N, isLast (grid0.coords t) ↔ t.val % 8 = 7 :=
  (by decide +kernel : ∀ t : Fin grid0.N, isLast (grid0.coords t) ↔ t.val % 8 = 7)

/-- The input windows are never idle. -/
theorem live_x : ∀ t : Fin cfg0.N, cfg0.idle 0 (grid0.coords t) = false := by decide +kernel
theorem live_y : ∀ t : Fin cfg0.N, cfg0.idle 1 (grid0.coords t) = false := by decide +kernel

/-- The staging memref each window is on at point `t`, as the pipeline passes it to the body. -/
abbrev bufX (t : Fin cfg0.N) : Memref sig .tc .vmem S1x1024x1024 .f32 := win0_0.stage (cfg0.slots t 0)
abbrev bufX_whole (t : Fin cfg0.N) : (bufX t).IsWhole := hstage0_0 ((cfg0.slots t 0).cast nbuf0_0)
abbrev bufY (t : Fin cfg0.N) : Memref sig .tc .vmem S1x256x1024 .f32 := win0_1.stage (cfg0.slots t 1)
abbrev bufY_whole (t : Fin cfg0.N) : (bufY t).IsWhole := hstage0_1 ((cfg0.slots t 1).cast nbuf0_1)
abbrev bufO (t : Fin cfg0.N) : Memref sig .tc .vmem S1x1024x2048 .f32 := win0_2.stage (cfg0.slots t 2)
abbrev bufO_whole (t : Fin cfg0.N) : (bufO t).IsWhole := hstage0_2 ((cfg0.slots t 2).cast nbuf0_2)

/-- The running maximum, running denominator and running numerator cells. -/
abbrev cellM : Memref sig .tc .vmem S1024x1 .f32 := Memref.whole cc0_scratch0
abbrev cellL : Memref sig .tc .vmem S1024x1 .f32 := Memref.whole cc0_scratch1
abbrev cellA : Memref sig .tc .vmem S1024x1024 .f32 := Memref.whole cc0_scratch2

/-- What the launch hands the region beside the windows: the three cells, each owned at some contents, and the
    generator register. -/
theorem entryInv_eq (c : Dev nD) :
    (Pipeline.ΦA spec0 c : sProp 𝕄)
      = iprop(iprop((∃ d, owns (c : Thread nD τ) cellM fullShare d) ∗ (∃ d, owns (c : Thread nD τ) cellL fullShare d)
          ∗ (∃ d, owns (c : Thread nD τ) cellA fullShare d)) ∗ (∃ r, prngReg c r)) := by
  unfold Pipeline.ΦA; rw [scopedRest0_eq]; simp only [cellM, cellL, cellA, owns_whole]; try rfl

end Cert.KernelIdeal.Body

end
-- ==== Proof.BodyI.Cells.lean ====
/-
  What one run of the attention body leaves, as pure functions of what it loads.

  The running cells after a FIRST key tile depend only on the query block `x0` and the key tile `x1`: the body
  stores -inf, 0, 0 and then performs the same update as at every other tile. After any other tile they are the same
  update of the cells the tile before left. The output block gets its first 1024 features (the query block itself)
  at a first tile and its last 1024 features (running numerator over running denominator) at a last tile; all other
  entries of the block are left as found.
-/
import proofs.«102668_j30167850287543_2_alg».proof.Proof.BodyI.Shared
import Idealize.ShloMosaic.Lib.ValueIdx
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

/-- The three running cells: maximum, denominator, numerator. -/
abbrev Cells (F : FTy → Type) [FloatOps F] : Type := Vec F S1024x1 .f32 × Vec F S1024x1 .f32 × Vec F S1024x1024 .f32

/-- One tile's update of the cells `(mo, lo, ao)` by query block `x0` and key tile `x1`. -/
def cellsNext (x0 : Vec F S1x1024x1024 .f32) (x1 : Vec F S1x256x1024 .f32) (s : Cells F) : Cells F :=
  (k0_pay2 (k0_pay10 x0 x1 s.1), k0_pay13 x0 x1 s.1 s.1 s.2.1, k0_pay1 (k0_pay14 x0 x1 s.1 s.1 s.2.2))

/-- The cells as the body initialises them at a first key tile: -inf, 0, 0. -/
def cellsInit : Cells F := (k0_pay4, k0_pay5, k0_pay6)

/-- The cells after a first key tile. -/
def cellsFirst (x0 : Vec F S1x1024x1024 .f32) (x1 : Vec F S1x256x1024 .f32) : Cells F := cellsNext x0 x1 cellsInit

/-- The output block after a first key tile that found it at `y5`: the query block in features below 1024. -/
def outFirst (x0 : Vec F S1x1024x1024 .f32) (y5 : Vec F S1x1024x2048 .f32) : Vec F S1x1024x2048 .f32 := fun o =>
  if h : (o 2).val < 1024 then k0_pay7 x0 (ix3 (n0 := 1) (n1 := 1024) (n2 := 1024) (o 0) (o 1) ⟨(o 2).val, h⟩) else y5 o

/-- The output block after a last key tile that found it at `y5`, the cells then at `s`: numerator over denominator
    in features from 1024 on. -/
def outLast (s : Cells F) (y5 : Vec F S1x1024x2048 .f32) : Vec F S1x1024x2048 .f32 := fun o =>
  if h : (o 2).val < 1024 then y5 o
  else k0_pay3 s.2.2 s.2.1 (ix3 (n0 := 1) (n1 := 1024) (n2 := 1024) (o 0) (o 1)
    ⟨(o 2).val - 1024, by have h2 : (o 2).val < 2048 := (o 2).isLt; omega⟩)

/-- The zero offsets of a rank-2 and of a rank-3 rectangle are the constant function. -/
theorem zero2 : (![0, 0] : Fin 2 → ℕ) = fun _ => 0 := by funext a; fin_cases a <;> rfl
theorem zero3 : (![0, 0, 0] : Fin 3 → ℕ) = fun _ => 0 := by funext a; fin_cases a <;> rfl

/-- A store through the whole-shape rectangle, last, leaves its payload, whatever was stored before. -/
theorem read_head_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  exact View.read_writes_cons_unit_of_mem v f inb w L y y rfl (fun a => (Nat.zero_add _).symm)

end Cert.KernelIdeal.Body

end
-- ==== Proof.BodyI.CaseFirst.lean ====
/-
  The attention body run at a FIRST key tile of a (batch, query tile): it initialises the running cells to
  (-inf, 0, 0), copies the query block into the first half of the output block, and performs one update.
-/
import proofs.«102668_j30167850287543_2_alg».proof.Proof.BodyI.Cells

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

set_option maxHeartbeats 2000000 in
/-- On whole staging memrefs — the inputs at `x0`, `x1`, the output block at `y5`, the cells at anything — the body
    runs to the inputs as they were, the output block with the query block in its first 1024 features and the rest
    as found, and the cells at one update of (-inf, 0, 0). -/
theorem bodyFirst (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : isFirst i) (hc1 : ¬isLast i)
    (x0 : Vec F S1x1024x1024 .f32) (x1 : Vec F S1x256x1024 .f32) (y5 : Vec F S1x1024x2048 .f32) (E : Set ℕ) (K : PUnit → sProp 𝕄) :
    iprop(owns (c : Thread nD τ) arg3 fullShare x0 ∗ owns (c : Thread nD τ) arg4 fullShare x1 ∗ owns (c : Thread nD τ) arg5 fullShare y5 ∗ (∃ d, owns (c : Thread nD τ) arg6 fullShare d) ∗ (∃ d, owns (c : Thread nD τ) arg7 fullShare d) ∗ (∃ d, owns (c : Thread nD τ) arg8 fullShare d)
      ∗ (iprop(owns (c : Thread nD τ) arg3 fullShare x0 ∗ owns (c : Thread nD τ) arg4 fullShare x1 ∗ owns (c : Thread nD τ) arg5 fullShare (outFirst x0 y5) ∗ owns (c : Thread nD τ) arg6 fullShare (cellsFirst x0 x1).1 ∗ owns (c : Thread nD τ) arg7 fullShare (cellsFirst x0 x1).2.1 ∗ owns (c : Thread nD τ) arg8 fullShare (cellsFirst x0 x1).2.2) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f5, %hf5, H5⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf5
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr; swap; · iexact H5
    ipureintro
    funext o
    unfold outFirst
    by_cases h : (o 2).val < 1024
    · rw [dif_pos h]
      refine (View.read_writes_cons_unit_of_mem arg5.view _ inb_S1x1024x2048_S1x1024x1024_0_0_0 _ [] o
        (ix3 (n0 := 1) (n1 := 1024) (n2 := 1024) (o 0) (o 1) ⟨(o 2).val, h⟩) rfl (fun a => ?_)).trans ?_
      · match a with
        | ⟨0, _⟩ => exact (Nat.zero_add _).symm
        | ⟨1, _⟩ => exact (Nat.zero_add _).symm
        | ⟨2, _⟩ => exact (Nat.zero_add _).symm
      · simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
    · rw [dif_neg h]
      refine (View.read_writes_cons_unit_of_not_mem arg5.view _ inb_S1x1024x2048_S1x1024x1024_0_0_0 _ [] o rfl 2 (Or.inr ?_)).trans ?_
      · show 0 + 1024 ≤ (o 2).val
        omega
      · rw [View.writes_nil]; exact congrFun hf5 o
  isplitl [HS0]
  · iexists _; isplitr; swap; · iexact HS0
    ipureintro
    refine (read_head_whole arg6.view fs0 zero2 _ _ _).trans ?_
    show _ = k0_pay2 (k0_pay10 x0 x1 k0_pay4)
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS1]
  · iexists _; isplitr; swap; · iexact HS1
    ipureintro
    refine (read_head_whole arg7.view fs1 zero2 _ _ _).trans ?_
    show _ = k0_pay13 x0 x1 k0_pay4 k0_pay4 k0_pay5
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  iexists _; isplitr; swap; · iexact HS2
  ipureintro
  refine (read_head_whole arg8.view fs2 zero2 _ _ _).trans ?_
  show _ = k0_pay1 (k0_pay14 x0 x1 k0_pay4 k0_pay4 k0_pay6)
  sl_unfold_run_names
  simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]

end Cert.KernelIdeal.Body

end
-- ==== Proof.BodyI.CaseMid.lean ====
/-
  The attention body run at a key tile that is neither the first nor the last: one update of the running cells;
  the output block is not touched.
-/
import proofs.«102668_j30167850287543_2_alg».proof.Proof.BodyI.Cells

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

set_option maxHeartbeats 2000000 in
/-- On whole staging memrefs — the inputs at `x0`, `x1`, the output block at `y5`, the cells at `s` — the body runs to
    the inputs and the output block as they were and the cells at one update of `s`. -/
theorem bodyMid (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬isFirst i) (hc1 : ¬isLast i)
    (x0 : Vec F S1x1024x1024 .f32) (x1 : Vec F S1x256x1024 .f32) (y5 : Vec F S1x1024x2048 .f32) (s : Cells F) (E : Set ℕ) (K : PUnit → sProp 𝕄) :
    iprop(owns (c : Thread nD τ) arg3 fullShare x0 ∗ owns (c : Thread nD τ) arg4 fullShare x1 ∗ owns (c : Thread nD τ) arg5 fullShare y5 ∗ owns (c : Thread nD τ) arg6 fullShare s.1 ∗ owns (c : Thread nD τ) arg7 fullShare s.2.1 ∗ owns (c : Thread nD τ) arg8 fullShare s.2.2
      ∗ (iprop(owns (c : Thread nD τ) arg3 fullShare x0 ∗ owns (c : Thread nD τ) arg4 fullShare x1 ∗ owns (c : Thread nD τ) arg5 fullShare y5 ∗ owns (c : Thread nD τ) arg6 fullShare (cellsNext x0 x1 s).1 ∗ owns (c : Thread nD τ) arg7 fullShare (cellsNext x0 x1 s).2.1 ∗ owns (c : Thread nD τ) arg8 fullShare (cellsNext x0 x1 s).2.2) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf5
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr; swap; · iexact H5
    ipureintro
    exact harg5.read_unread _
  isplitl [HS0]
  · iexists _; isplitr; swap; · iexact HS0
    ipureintro
    refine (read_head_whole arg6.view _ zero2 _ _ _).trans ?_
    show _ = k0_pay2 (k0_pay10 x0 x1 s.1)
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS1]
  · iexists _; isplitr; swap; · iexact HS1
    ipureintro
    refine (read_head_whole arg7.view _ zero2 _ _ _).trans ?_
    show _ = k0_pay13 x0 x1 s.1 s.1 s.2.1
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  iexists _; isplitr; swap; · iexact HS2
  ipureintro
  refine (read_head_whole arg8.view _ zero2 _ _ _).trans ?_
  show _ = k0_pay1 (k0_pay14 x0 x1 s.1 s.1 s.2.2)
  sl_unfold_run_names
  simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]

end Cert.KernelIdeal.Body

end
-- ==== Proof.BodyI.CaseLast.lean ====
/-
  The attention body run at the LAST key tile: one update of the running cells, then the running numerator divided
  by the running denominator is stored into the second half of the output block.
-/
import proofs.«102668_j30167850287543_2_alg».proof.Proof.BodyI.Cells

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

set_option maxHeartbeats 2000000 in
/-- On whole staging memrefs — the inputs at `x0`, `x1`, the output block at `y5`, the cells at `s` — the body runs to
    the inputs as they were, the cells at one update of `s`, and the output block with the updated numerator over
    the updated denominator in features from 1024 on, the rest as found. -/
theorem bodyLast (c : Dev nD) (i : grid0.Coords) (arg3 : Memref sig .tc .vmem S1x1024x1024 .f32) (harg3 : arg3.IsWhole) (arg4 : Memref sig .tc .vmem S1x256x1024 .f32) (harg4 : arg4.IsWhole) (arg5 : Memref sig .tc .vmem S1x1024x2048 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬isFirst i) (hc1 : isLast i)
    (x0 : Vec F S1x1024x1024 .f32) (x1 : Vec F S1x256x1024 .f32) (y5 : Vec F S1x1024x2048 .f32) (s : Cells F) (E : Set ℕ) (K : PUnit → sProp 𝕄) :
    iprop(owns (c : Thread nD τ) arg3 fullShare x0 ∗ owns (c : Thread nD τ) arg4 fullShare x1 ∗ owns (c : Thread nD τ) arg5 fullShare y5 ∗ owns (c : Thread nD τ) arg6 fullShare s.1 ∗ owns (c : Thread nD τ) arg7 fullShare s.2.1 ∗ owns (c : Thread nD τ) arg8 fullShare s.2.2
      ∗ (iprop(owns (c : Thread nD τ) arg3 fullShare x0 ∗ owns (c : Thread nD τ) arg4 fullShare x1 ∗ owns (c : Thread nD τ) arg5 fullShare (outLast (cellsNext x0 x1 s) y5) ∗ owns (c : Thread nD τ) arg6 fullShare (cellsNext x0 x1 s).1 ∗ owns (c : Thread nD τ) arg7 fullShare (cellsNext x0 x1 s).2.1 ∗ owns (c : Thread nD τ) arg8 fullShare (cellsNext x0 x1 s).2.2) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]
  unfold owns
  iintro ⟨⟨%f0, %hf0, H0⟩, ⟨%f1, %hf1, H1⟩, ⟨%f5, %hf5, H5⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf5
  obtain rfl := harg6.eq_unread hfs0; obtain rfl := harg7.eq_unread hfs1; obtain rfl := harg8.eq_unread hfs2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H5]
  · iexists _; isplitr; swap; · iexact H5
    ipureintro
    funext o
    unfold outLast
    by_cases h : (o 2).val < 1024
    · rw [dif_pos h]
      refine (View.read_writes_cons_unit_of_not_mem arg5.view _ inb_S1x1024x2048_S1x1024x1024_0_0_1024 _ [] o rfl 2 (Or.inl ?_)).trans ?_
      · show (o 2).val < 1024
        exact h
      · rw [View.writes_nil]; exact congrFun (harg5.read_unread y5) o
    · rw [dif_neg h]
      have h2 : (o 2).val < 2048 := (o 2).isLt
      refine (View.read_writes_cons_unit_of_mem arg5.view _ inb_S1x1024x2048_S1x1024x1024_0_0_1024 _ [] o
        (ix3 (n0 := 1) (n1 := 1024) (n2 := 1024) (o 0) (o 1) ⟨(o 2).val - 1024, by omega⟩) rfl (fun a => ?_)).trans ?_
      · match a with
        | ⟨0, _⟩ => exact (Nat.zero_add _).symm
        | ⟨1, _⟩ => exact (Nat.zero_add _).symm
        | ⟨2, _⟩ =>
          show (o 2).val = 1024 + ((o 2).val - 1024)
          omega
      · show _ = k0_pay3 (k0_pay1 (k0_pay14 x0 x1 s.1 s.1 s.2.2)) (k0_pay13 x0 x1 s.1 s.1 s.2.1) _
        sl_unfold_run_names
        simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS0]
  · iexists _; isplitr; swap; · iexact HS0
    ipureintro
    refine (read_head_whole arg6.view _ zero2 _ _ _).trans ?_
    show _ = k0_pay2 (k0_pay10 x0 x1 s.1)
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  isplitl [HS1]
  · iexists _; isplitr; swap; · iexact HS1
    ipureintro
    refine (read_head_whole arg7.view _ zero2 _ _ _).trans ?_
    show _ = k0_pay13 x0 x1 s.1 s.1 s.2.1
    sl_unfold_run_names
    simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]
  iexists _; isplitr; swap; · iexact HS2
  ipureintro
  refine (read_head_whole arg8.view _ zero2 _ _ _).trans ?_
  show _ = k0_pay1 (k0_pay14 x0 x1 s.1 s.1 s.2.2)
  sl_unfold_run_names
  simp only [View.readAt_eq_ld, harg3.read_unread, harg4.read_unread, harg6.read_unread, harg7.read_unread, harg8.read_unread, View.ld_unit_zero (S := S1x1024x1024) zero3, View.ld_unit_zero (S := S1x256x1024) zero3, View.ld_unit_zero (S := S1024x1) zero2, View.ld_unit_zero (S := S1024x1024) zero2, View.readCov_unit_zero (S := S1024x1) _ zero2, View.readCov_unit_zero (S := S1024x1024) _ zero2]

end Cert.KernelIdeal.Body

end
-- ==== Proof.BodyI.Data.lean ====
/-
  The proof data of the attention pipeline, and the body's obligation against them.

  The running cells after the body at grid position `n` are a recursion on `n`: at a first key tile one update of
  (-inf, 0, 0) by the point's query block and key tile, elsewhere one update of the cells the position before left.
  The invariant between points owns the three cells at exactly these contents (before the first point: at anything).

  The two inputs' staging buffers hold their blocks at every point. Of the output's staging buffer the data state a
  RELATION between what the body finds and what it leaves: at a first key tile the query block is written into features
  below 1024, at a last key tile numerator over denominator into features from 1024 on, and every other entry — and, at
  the tiles in between, the whole buffer — is left as found. Nothing names what the buffer holds before the first
  store into it.
-/
import proofs.«102668_j30167850287543_2_alg».proof.Proof.BodyI.CaseFirst
import proofs.«102668_j30167850287543_2_alg».proof.Proof.BodyI.CaseMid
import proofs.«102668_j30167850287543_2_alg».proof.Proof.BodyI.CaseLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The query block and the key tile of point `t`, read off the argument arrays. -/
abbrev xAt (c : Dev nD) (t : Fin cfg0.N) : Vec F S1x1024x1024 .f32 := iblk m c 0 t
abbrev yAt (c : Dev nD) (t : Fin cfg0.N) : Vec F S1x256x1024 .f32 := iblk m c 1 t

/-- The running cells after the body at position `n`. -/
def cellsAt (c : Dev nD) : (n : ℕ) → n < cfg0.N → Cells F
  | 0, hn => cellsFirst (xAt m c ⟨0, hn⟩) (yAt m c ⟨0, hn⟩)
  | n + 1, hn =>
    if (n + 1) % 8 = 0 then cellsFirst (xAt m c ⟨n + 1, hn⟩) (yAt m c ⟨n + 1, hn⟩)
    else cellsNext (xAt m c ⟨n + 1, hn⟩) (yAt m c ⟨n + 1, hn⟩) (cellsAt c n (Nat.lt_of_succ_lt hn))

theorem cellsAt_first (c : Dev nD) (t : Fin cfg0.N) (h : t.val % 8 = 0) :
    cellsAt m c t.val t.isLt = cellsFirst (xAt m c t) (yAt m c t) := by
  obtain ⟨n, hn⟩ := t
  cases n with
  | zero => rfl
  | succ n => exact (if_pos h).trans rfl

theorem cellsAt_next (c : Dev nD) (t : Fin cfg0.N) (h : ¬t.val % 8 = 0) :
    cellsAt m c t.val t.isLt
      = cellsNext (xAt m c t) (yAt m c t) (cellsAt m c (t.val - 1) (Nat.lt_of_le_of_lt (Nat.sub_le _ _) t.isLt)) := by
  obtain ⟨n, hn⟩ := t
  cases n with
  | zero => exact absurd (Nat.zero_mod _) h
  | succ n => exact (if_neg h).trans rfl

/-- The invariant before position `n`: before the first point what the launch hands over (the cells at anything);
    afterwards the cells at what the position before left, and the generator register at some state. -/
def Inv (c : Dev nD) : (n : ℕ) → n ≤ cfg0.N → sProp 𝕄
  | 0, _ => Pipeline.ΦA spec0 c
  | n + 1, hn => iprop(iprop(owns (c : Thread nD τ) cellM fullShare (cellsAt m c n hn).1
      ∗ owns (c : Thread nD τ) cellL fullShare (cellsAt m c n hn).2.1
      ∗ owns (c : Thread nD τ) cellA fullShare (cellsAt m c n hn).2.2) ∗ (∃ r, prngReg c r))

theorem Inv_succ (c : Dev nD) (n : ℕ) (hn : n < cfg0.N) :
    Inv m c (n + 1) hn = iprop(iprop(owns (c : Thread nD τ) cellM fullShare (cellsAt m c n hn).1
      ∗ owns (c : Thread nD τ) cellL fullShare (cellsAt m c n hn).2.1
      ∗ owns (c : Thread nD τ) cellA fullShare (cellsAt m c n hn).2.2) ∗ (∃ r, prngReg c r)) := rfl

theorem Inv_pos (c : Dev nD) (n : ℕ) (h : n ≤ cfg0.N) (hz : n ≠ 0) :
    Inv m c n h = iprop(iprop(owns (c : Thread nD τ) cellM fullShare (cellsAt m c (n - 1) (by omega)).1
      ∗ owns (c : Thread nD τ) cellL fullShare (cellsAt m c (n - 1) (by omega)).2.1
      ∗ owns (c : Thread nD τ) cellA fullShare (cellsAt m c (n - 1) (by omega)).2.2) ∗ (∃ r, prngReg c r)) := by
  cases n with
  | zero => exact absurd rfl hz
  | succ n => rfl

/-- At every position the invariant yields the cells at SOME contents: what the launch handed over. -/
theorem Inv_forget (c : Dev nD) (n : ℕ) (h : n ≤ cfg0.N) : Inv m c n h ⊢ Pipeline.ΦA spec0 c := by
  cases n with
  | zero => exact Idealize.SL.BI.Entails.refl _
  | succ n =>
    rw [Inv_succ, entryInv_eq]
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-- The exact part of the data: the arrays as the region finds them, each input's buffer left at its block, full
    shares, nothing owed. (What it says of the output window is replaced below.) -/
def exact (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := Inv m c t.val (Nat.le_of_lt_succ t.isLt)
  q _ := fullShare
  owed _ := 0

theorem exact_A (c : Dev nD) (w : Fin cfg0.W) : (exact m c).A w = V m c (Pipeline.arrRef spec0 w) := by
  dsimp only [exact]
theorem exact_after_x (c : Dev nD) (t : Fin cfg0.N) : (exact m c).after 0 t = iblk m c 0 t := by dsimp only [exact]
theorem exact_after_y (c : Dev nD) (t : Fin cfg0.N) : (exact m c).after 1 t = iblk m c 1 t := by dsimp only [exact]

/-- What the body leaves in the output's staging buffer (`X`) given what it found there (`Y`). -/
def outRel (c : Dev nD) (t : Fin cfg0.N) (Y X : Vec F S1x1024x2048 .f32) : Prop :=
  X = if t.val % 8 = 0 then outFirst (xAt m c t) Y
      else if t.val % 8 = 7 then outLast (cellsAt m c t.val t.isLt) Y else Y

/-- The output window's relation replaces the exact data's; the inputs keep theirs. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (outRel m c)

/-- The proof data, relational in the output window. -/
def rel (c : Dev nD) : RDat τ (Elt F) Unit ℕ (UR sig nD τ) ℕ cfg0 c := (exact m c).toR.override (ovr m c)

theorem rel_A (c : Dev nD) (w : Fin cfg0.W) : (rel m c).A w = V m c (Pipeline.arrRef spec0 w) := exact_A m c w

theorem rel_after_out (c : Dev nD) : (rel m c).after 2 = outRel m c :=
  (exact m c).toR.override_after_of_eq_some (ovr := ovr m c) rfl

/-- The body finds each input's staging buffer at the point's block. -/
theorem finds_x (c : Dev nD) (t : Fin cfg0.N) (Y) (h : (rel m c).Finds 0 t Y) : Y = iblk m c 0 t := by
  obtain ⟨d, rfl⟩ := (exact m c).toR_finds 0 t Y (((exact m c).toR.override_finds (ovr := ovr m c) rfl t Y).mp h)
  exact before0_0_of m (exact m c) (exact_A m c 0) (exact_after_x m c) t d
theorem finds_y (c : Dev nD) (t : Fin cfg0.N) (Y) (h : (rel m c).Finds 1 t Y) : Y = iblk m c 1 t := by
  obtain ⟨d, rfl⟩ := (exact m c).toR_finds 1 t Y (((exact m c).toR.override_finds (ovr := ovr m c) rfl t Y).mp h)
  exact before0_1_of m (exact m c) (exact_A m c 1) (exact_after_y m c) t d

/-- and may leave it there. -/
theorem after_x (c : Dev nD) (t : Fin cfg0.N) (Y) : (rel m c).after 0 t Y (iblk m c 0 t) := by
  rw [show (rel m c).after 0 = (exact m c).toR.after 0 from (exact m c).toR.override_after_of_eq_none (ovr := ovr m c) rfl]
  show (exact m c).Leaves 0 t (iblk m c 0 t)
  exact (Dat.Leaves.live_iff (exact m c) (.inl (live_x t))).mpr (exact_after_x m c t).symm
theorem after_y (c : Dev nD) (t : Fin cfg0.N) (Y) : (rel m c).after 1 t Y (iblk m c 1 t) := by
  rw [show (rel m c).after 1 = (exact m c).toR.after 1 from (exact m c).toR.override_after_of_eq_none (ovr := ovr m c) rfl]
  show (exact m c).Leaves 1 t (iblk m c 1 t)
  exact (Dat.Leaves.live_iff (exact m c) (.inl (live_y t))).mpr (exact_after_y m c t).symm

end Cert.KernelIdeal.Body

end
-- ==== Proof.BodyI.Obligation.lean ====
/-
  The body's obligation against the relational data, the run of @main, and the frame.

  At every point the two inputs' buffers hold the point's blocks, so one of the three case runs applies: which one is
  decided by the key tile `t % 8`. The invariant hands the run the cells at what the point before left (at a first
  key tile their contents do not matter) and takes them back at this point's contents; the output's buffer comes back
  in the relation the data state. With the obligation, the launch theorem for relational data gives a run of @main
  after which every windowed array holds SOME contents the write-backs allow — for an input, its entry contents.
-/
import proofs.«102668_j30167850287543_2_alg».proof.Proof.BodyI.Data

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

set_option maxHeartbeats 4000000 in
/-- The body obligation of the relational data, at every point. -/
theorem obligation (c : Dev nD) : (rel m c).BodyObligation (defs₀ (F := F)) Variants.none () Set.univ := fun t Y hY => by
  have hx : Y 0 = iblk m c 0 t := finds_x m c t (Y 0) (hY 0)
  have hy : Y 1 = iblk m c 1 t := finds_y m c t (Y 1) (hY 1)
  rw [bigSep_W0, bigSep_W0, hx, hy]
  rw [show (rel m c).owesAt () t.succ = (rel m c).owesAt () t.castSucc from rfl]
  rw [show (rel m c).Φ t.succ = Inv m c (t.val + 1) t.isLt from rfl, Inv_succ]
  rw [show (rel m c).Φ t.castSucc = Inv m c t.val (Nat.le_of_lt t.isLt) from rfl]
  show _ ⊢ wp frame (wpE (defs₀ (F := F)) Variants.none c none) Set.univ (bodyAt0 t) _
  have hN : t.val < 128 := lt_of_lt_of_eq t.isLt (show cfg0.N = 128 from N_0)
  by_cases h0 : t.val % 8 = 0
  · have hc0 : isFirst (grid0.coords t) := (isFirst_iff t).mpr h0
    have hc1 : ¬isLast (grid0.coords t) := fun h => by have := (isLast_iff t).mp h; omega
    rw [cellsAt_first m c t h0]
    refine (BIClass.sep_mono (Inv_forget m c _ _) .rfl).trans ?_
    rw [entryInv_eq]
    iintro ⟨⟨⟨HS0, HS1, HS2⟩, Hg⟩, Ho, H0, H1, H2⟩
    iapply (bodyFirst c (grid0.coords t) _ _ _ _ _ _ _ _ _ _ _ _ hc0 hc1 (iblk m c 0 t) (iblk m c 1 t) (Y 2) Set.univ _)
    isplitl [H0]; · iexact H0
    isplitl [H1]; · iexact H1
    isplitl [H2]; · iexact H2
    isplitl [HS0]; · iexact HS0
    isplitl [HS1]; · iexact HS1
    isplitl [HS2]; · iexact HS2
    iintro ⟨H0, H1, H2, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]
    · iexists _; isplitr; swap; · iexact H0
      ipureintro; exact after_x m c t _
    isplitl [H1]
    · iexists _; isplitr; swap; · iexact H1
      ipureintro; exact after_y m c t _
    iexists _; isplitr; swap; · iexact H2
    ipureintro
    rw [rel_after_out]; unfold outRel
    rw [if_pos h0]
  · have hc0 : ¬isFirst (grid0.coords t) := fun h => h0 ((isFirst_iff t).mp h)
    have hz : t.val ≠ 0 := fun e => h0 (by rw [e])
    rw [cellsAt_next m c t h0, Inv_pos m c _ _ hz]
    by_cases h1 : t.val % 8 = 7
    · have hc1 : isLast (grid0.coords t) := (isLast_iff t).mpr h1
      iintro ⟨⟨⟨HS0, HS1, HS2⟩, Hg⟩, Ho, H0, H1, H2⟩
      iapply (bodyLast c (grid0.coords t) _ _ _ _ _ _ _ _ _ _ _ _ hc0 hc1 (iblk m c 0 t) (iblk m c 1 t) (Y 2)
        (cellsAt m c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]
      · iexists _; isplitr; swap; · iexact H0
        ipureintro; exact after_x m c t _
      isplitl [H1]
      · iexists _; isplitr; swap; · iexact H1
        ipureintro; exact after_y m c t _
      iexists _; isplitr; swap; · iexact H2
      ipureintro
      rw [rel_after_out]; unfold outRel
      rw [if_neg h0, if_pos h1, cellsAt_next m c t h0]
    · have hc1 : ¬isLast (grid0.coords t) := fun h => h1 ((isLast_iff t).mp h)
      iintro ⟨⟨⟨HS0, HS1, HS2⟩, Hg⟩, Ho, H0, H1, H2⟩
      iapply (bodyMid c (grid0.coords t) _ _ _ _ _ _ _ _ _ _ _ _ hc0 hc1 (iblk m c 0 t) (iblk m c 1 t) (Y 2)
        (cellsAt m c (t.val - 1) (Nat.lt_of_le_of_lt (Nat.sub_le _ _) t.isLt)) Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]
      · iexists _; isplitr; swap; · iexact H0
        ipureintro; exact after_x m c t _
      isplitl [H1]
      · iexists _; isplitr; swap; · iexact H1
        ipureintro; exact after_y m c t _
      iexists _; isplitr; swap; · iexact H2
      ipureintro
      rw [rel_after_out]; unfold outRel
      rw [if_neg h0, if_neg h1]

/-- What the launch hands the region is the invariant before the first point, -/
theorem inv_in (c : Dev nD) : Pipeline.ΦA spec0 c ⊢ (rel m c).Φ 0 := Idealize.SL.BI.Entails.refl _

/-- and after the last point the invariant gives it back. -/
theorem inv_out (c : Dev nD) : (rel m c).Φ (Fin.last cfg0.N) ⊢ Pipeline.ΦA spec0 c := by
  rw [show (rel m c).Φ (Fin.last cfg0.N) = Inv m c (Fin.last cfg0.N).val (Nat.le_of_lt_succ (Fin.last cfg0.N).isLt) from rfl]
  exact Inv_forget m c _ _

set_option backward.isDefEq.respectTransparency.types false in
/-- Every weakly fair execution of @main terminates, and in every final state each windowed array holds some contents
    the relational data allow after every write-back, every other unscoped buffer what it held at entry. -/
theorem run_rel : θ_run defs (onTc (τ := τ) (main (F := F))) (s₀ m ρ)
    (Pipeline.RDat.FramePost (cfgs 0) (fun c => rel m c) (V m)) :=
  Pipeline.RDat.θ_run_frame_track cfgs (0 : Fin 1) launch0 defs₀ Variants.none (fun c => rel m c) m ρ main
    (hbody := fun c => obligation m c) (hshare := fun c w => by unfold RDat.share; exact ite_self _)
    (howed := fun _ _ => rfl) (V := V m) (hmain := hmain m Variants.none) (hA := rel_A m) (hin := inv_in m) (hout := inv_out m)

/-- The frame: the argument arrays end as they began (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun ((rel m c).ArrAt_in 0 rfl _) _) ((h c).1 0)).trans ((rel_A m c 0).trans (V_main_arg0 m c)),
     (Eq.mp (congrFun ((rel m c).ArrAt_in 1 rfl _) _) ((h c).1 1)).trans ((rel_A m c 1).trans (V_main_arg1 m c))⟩) (run_rel m ρ)

end Cert.KernelIdeal.Body

end
-- ==== Proof.Spec.lean ====
/-
  The specification of unscaled softmax attention concatenated behind its queries.

  For one query row `q` and the key rows `K j` (which are also the value rows), the attention row is the
  average of the key rows weighted by `exp ⟨q, K j⟩`:
      attnRow q K d = (∑ j, exp ⟨q, K j⟩ · K j d) / (∑ j, exp ⟨q, K j⟩).
  It is written WITHOUT a shift of the exponent: subtracting any real `μ` from every logit multiplies numerator
  and denominator by the same positive factor `exp (-μ)`, so a softmax computed against a row maximum, or
  against a running maximum, is this same quotient.

  `RowState` says what a running (one pass, tile by tile) softmax holds for one query row after the key rows in
  `S`: a real shift `μ`, the sum of the shifted weights, and per feature the shifted weighted sum. Which real
  `μ` is does not matter to the final quotient.

  `G x y` is the whole result array: features below 1024 are the query array itself, features from 1024 on are
  the attention rows of the arrays' real parts (the arrays are finite in every use).
-/
import Idealize.ShloMosaic.PureOps.Ideal
import Idealize.ShloMosaic.Lib.ValueIdx

noncomputable section

open scoped BigOperators

namespace Attn

open Idealize.ShloMosaic Idealize.ShloMosaic.ValueIdx

/-- The inner product of a query row and a key row. -/
def dotRow (q k : Fin 1024 → ℝ) : ℝ := ∑ d : Fin 1024, q d * k d

/-- Feature `d` of the attention row: the key rows averaged with weights `exp ⟨q, K j⟩`. -/
def attnRow (q : Fin 1024 → ℝ) (K : Fin 2048 → Fin 1024 → ℝ) (d : Fin 1024) : ℝ :=
  (∑ j : Fin 2048, Real.exp (dotRow q (K j)) * K j d) / (∑ j : Fin 2048, Real.exp (dotRow q (K j)))

/-- What a running softmax holds for query row `q` after the key rows `S`: for some real shift `μ`, the running
    maximum cell is `μ`, the running denominator is `∑ j ∈ S, exp (⟨q, K j⟩ - μ)` and the running numerator of
    feature `d` is `∑ j ∈ S, exp (⟨q, K j⟩ - μ) · K j d`. -/
def RowState (q : Fin 1024 → ℝ) (K : Fin 2048 → Fin 1024 → ℝ) (S : Finset (Fin 2048))
    (mv lv : EReal) (av : Fin 1024 → EReal) : Prop :=
  ∃ μ : ℝ, mv = (μ : EReal)
    ∧ lv = ((∑ j ∈ S, Real.exp (dotRow q (K j) - μ) : ℝ) : EReal)
    ∧ ∀ d, av d = ((∑ j ∈ S, Real.exp (dotRow q (K j) - μ) * K j d : ℝ) : EReal)

/-- The shape of the two argument arrays and of the result. -/
abbrev SX : Shape := ⟨3, ![8, 2048, 1024]⟩
abbrev SO : Shape := ⟨3, ![8, 2048, 2048]⟩

/-- Row `i` of batch `b` of an argument array, as reals. -/
def rowOf (x : SX.Idx → EReal) (b : Fin 8) (i : Fin 2048) : Fin 1024 → ℝ := fun d => (x (ix3 b i d)).toReal

/-- The result array: `x` in the first 1024 features, the attention rows of `x` against `y` in the last 1024. -/
def G (x y : SX.Idx → EReal) : SO.Idx → EReal := fun o =>
  if h : (o 2).val < 1024 then x (ix3 (o 0) (o 1) ⟨(o 2).val, h⟩)
  else ((attnRow (rowOf x (o 0) (o 1)) (fun j => rowOf y (o 0) j)
          ⟨(o 2).val - 1024, by have h2 : (o 2).val < 2048 := (o 2).isLt; omega⟩ : ℝ) : EReal)

end Attn

end
-- ==== Proof.Blocks.lean ====
/-
  The windows' blocks as entries of the arrays, over the grid.

  The grid is (batch, query tile, key tile) = (8, 2, 8) with the key tile innermost, so the point numbered `t`
  is batch `t / 16`, query tile `(t / 8) % 2`, key tile `t % 8`. The query window's block at `t` is the 1024 rows
  of query tile `(t / 8) % 2` of batch `t / 16`; the key window's block is the 256 rows of key tile `t % 8` of that
  batch; the output window's block is the 1024 rows, all 2048 features, of the query tile. An element of a block sits
  in its array, on each axis, at block index × block extent + its coordinate inside the block.

  The output's blocks tile the array: an index `i` lies in the block of exactly the points of batch `i 0` and query
  tile `i 1 / 1024`, and the last of them (key tile 7) is the one at which the block is written back.
-/
import proofs.«102668_j30167850287543_2_alg».proof.Proof.Gen.KernelIdeal.Frame
import proofs.«102668_j30167850287543_2_alg».proof.Proof.Spec
import Idealize.ShloMosaic.Lib.ValueIdx
import Idealize.ShloMosaic.Lib.Pipeline.Value

set_option maxRecDepth 16384

noncomputable section

namespace Attn.Blk

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ)

/-- The grid has 128 points. -/
theorem t_lt (t : Fin cfg0.N) : t.val < 128 := lt_of_lt_of_eq t.isLt N_0

/-- The batch of point `t`. -/
abbrev bOf (t : Fin cfg0.N) : Fin 8 := ⟨t.val / 16, by have := t_lt t; omega⟩
/-- Row `r` of point `t`'s query tile, as a row of the array. -/
abbrev qRow (t : Fin cfg0.N) (r : Fin 1024) : Fin 2048 := ⟨1024 * ((t.val / 8) % 2) + r.val, by have := r.isLt; omega⟩
/-- Row `j` of point `t`'s key tile, as a row of the array. -/
abbrev kRow (t : Fin cfg0.N) (j : Fin 256) : Fin 2048 := ⟨256 * (t.val % 8) + j.val, by have := j.isLt; omega⟩

/-- The three index maps, decided over the grid. -/
theorem idx_facts : ∀ t : Fin cfg0.N,
    win0_0.index t (0 : Fin 3) = t.val / 16 ∧ win0_0.index t (1 : Fin 3) = (t.val / 8) % 2 ∧ win0_0.index t (2 : Fin 3) = 0
    ∧ win0_1.index t (0 : Fin 3) = t.val / 16 ∧ win0_1.index t (1 : Fin 3) = t.val % 8 ∧ win0_1.index t (2 : Fin 3) = 0
    ∧ win0_2.index t (0 : Fin 3) = t.val / 16 ∧ win0_2.index t (1 : Fin 3) = (t.val / 8) % 2 ∧ win0_2.index t (2 : Fin 3) = 0 :=
  (by decide +kernel : ∀ t : Fin grid0.N, _)

/-- The query window's block at `t`, entry `(r, d)`, is the array's entry at batch `t / 16`, row `r` of query tile
    `(t / 8) % 2`, feature `d`. -/
theorem x_block_apply (c : Dev nD) (t : Fin cfg0.N) (r d : Fin 1024) :
    iblk m c 0 t (ix3 (n0 := 1) 0 r d) = V m c main_arg0 (ix3 (bOf t) (qRow t r) d) := by
  obtain ⟨e0, e1, e2, -⟩ := idx_facts t
  show V m c main_arg0 (((cfg0.win 0).blk t).view.emb (ix3 (n0 := 1) 0 r d)) = _
  refine congrArg _ (funext fun a => Fin.ext ?_)
  match a with
  | ⟨0, _⟩ => show win0_0.index t (0 : Fin 3) * 1 + 1 * 0 = t.val / 16; omega
  | ⟨1, _⟩ => show win0_0.index t (1 : Fin 3) * 1024 + 1 * r.val = 1024 * ((t.val / 8) % 2) + r.val; omega
  | ⟨2, _⟩ => show win0_0.index t (2 : Fin 3) * 1024 + 1 * d.val = d.val; omega

/-- The key window's block at `t`, entry `(j, d)`, is the array's entry at batch `t / 16`, row `j` of key tile
    `t % 8`, feature `d`. -/
theorem y_block_apply (c : Dev nD) (t : Fin cfg0.N) (j : Fin 256) (d : Fin 1024) :
    iblk m c 1 t (ix3 (n0 := 1) 0 j d) = V m c main_arg1 (ix3 (bOf t) (kRow t j) d) := by
  obtain ⟨-, -, -, e0, e1, e2, -⟩ := idx_facts t
  show V m c main_arg1 (((cfg0.win 1).blk t).view.emb (ix3 (n0 := 1) 0 j d)) = _
  refine congrArg _ (funext fun a => Fin.ext ?_)
  match a with
  | ⟨0, _⟩ => show win0_1.index t (0 : Fin 3) * 1 + 1 * 0 = t.val / 16; omega
  | ⟨1, _⟩ => show win0_1.index t (1 : Fin 3) * 256 + 1 * j.val = 256 * (t.val % 8) + j.val; omega
  | ⟨2, _⟩ => show win0_1.index t (2 : Fin 3) * 1024 + 1 * d.val = d.val; omega

/-- Whole-array contents of the output array, read through the output window's block at `t`: entry `o` of the
    block is the array's entry at batch `t / 16`, row `o 1` of query tile `(t / 8) % 2`, feature `o 2`. -/
theorem out_block_read (c : Dev nD) (t : Fin cfg0.N)
    (Gf : Buf (Elt F) ((cfg0.win 2).arr.view.loc (c.tc : Thread nD τ))) (o : S1x1024x2048.Idx) :
    ((cfg0.win 2).blk t).view.read (Elt F) Gf o
      = Gf (ix3 (bOf t) (qRow t ⟨(o 1).val, (o 1).isLt⟩) (⟨(o 2).val, (o 2).isLt⟩ : Fin 2048)) := by
  obtain ⟨-, -, -, -, -, -, e0, e1, e2⟩ := idx_facts t
  show Gf (((cfg0.win 2).blk t).view.emb o) = _
  refine congrArg _ (funext fun a => Fin.ext ?_)
  have h0 : (o 0).val < 1 := (o 0).isLt
  match a with
  | ⟨0, _⟩ => show win0_2.index t (0 : Fin 3) * 1 + 1 * (o 0).val = t.val / 16; omega
  | ⟨1, _⟩ => show win0_2.index t (1 : Fin 3) * 1024 + 1 * (o 1).val = 1024 * ((t.val / 8) % 2) + (o 1).val; omega
  | ⟨2, _⟩ => show win0_2.index t (2 : Fin 3) * 2048 + 1 * (o 2).val = (o 2).val; omega

/-- The output window is uncut (its blocks tile the array): the part of a block a write-back moves is the block. -/
theorem out_cut {α : Type} (t : Fin cfg0.N) (X : (cfg0.win 2).block.Idx → α) :
    (cfg0.win 2).cut (cfg0.grid.coords t) X = X := rfl

/-- An index of the output array is in point `t`'s block iff its batch is `t`'s and its row is in `t`'s query tile. -/
theorem mem_out_block (t : Fin cfg0.N) (i : S8x2048x2048.Idx) :
    i ∈ ((cfg0.win 2).blk t).view.set ↔ (i 0).val = t.val / 16 ∧ (i 1).val / 1024 = (t.val / 8) % 2 := by
  have h : i ∈ ((cfg0.win 2).blk t).view.set ↔ ∀ a : Fin 3, win0_2.index t a * S1x1024x2048.size a ≤ (i a).val
      ∧ (i a).val < win0_2.index t a * S1x1024x2048.size a + S1x1024x2048.size a := by
    show i ∈ ((View.whole main_v0).slice (win0_2.rect t)).set ↔ _
    rw [View.set_slice_whole, Rect.mem_set_unit]
    exact Iff.rfl
  rw [h]
  obtain ⟨-, -, -, -, -, -, e0, e1, e2⟩ := idx_facts t
  have h2 : (i 2).val < 2048 := (i 2).isLt
  constructor
  · intro hi
    have b0 : win0_2.index t (0 : Fin 3) * 1 ≤ (i 0).val ∧ (i 0).val < win0_2.index t (0 : Fin 3) * 1 + 1 := hi 0
    have b1 : win0_2.index t (1 : Fin 3) * 1024 ≤ (i 1).val ∧ (i 1).val < win0_2.index t (1 : Fin 3) * 1024 + 1024 := hi 1
    omega
  · rintro ⟨q0, q1⟩ a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 2048 ≤ (i 2).val ∧ (i 2).val < win0_2.index t (2 : Fin 3) * 2048 + 2048; omega

/-- The point that writes back the block holding index `i`: batch `i 0`, query tile `i 1 / 1024`, key tile 7. -/
abbrev coverPt (i : S8x2048x2048.Idx) : Fin cfg0.N :=
  ⟨16 * (i 0).val + 8 * ((i 1).val / 1024) + 7, by
    have h0 : (i 0).val < 8 := (i 0).isLt
    have h1 : (i 1).val < 2048 := (i 1).isLt
    rw [show cfg0.N = 128 from N_0]; omega⟩

/-- The cover: every index of the output array is in the block of a point at which the block is written back. -/
theorem out_cover (i : S8x2048x2048.Idx) :
    (cfg0.win 2).flush (coverPt i) = true ∧ i ∈ ((cfg0.win 2).blk (coverPt i)).view.set := by
  have h0 : (i 0).val < 8 := (i 0).isLt
  have h1 : (i 1).val < 2048 := (i 1).isLt
  refine ⟨(flush0_2 _).2 ?_, (mem_out_block _ i).2 ⟨?_, ?_⟩⟩
  · show (16 * (i 0).val + 8 * ((i 1).val / 1024) + 7) % 8 = 7; omega
  · show (i 0).val = (16 * (i 0).val + 8 * ((i 1).val / 1024) + 7) / 16; omega
  · show (i 1).val / 1024 = ((16 * (i 0).val + 8 * ((i 1).val / 1024) + 7) / 8) % 2; omega

/-- The cover in the form the whole-array post takes. -/
theorem out_cover_exists (i : S8x2048x2048.Idx) :
    ∃ t : Fin cfg0.N, (cfg0.win 2).flush t = true ∧ i ∈ ((cfg0.win 2).blk t).view.set :=
  ⟨coverPt i, out_cover i⟩

end Attn.Blk

end
-- ==== Proof.RowMath.lean ====
/-
  The mathematics of one query row under a running softmax.

  A running softmax visits the key rows tile by tile. For a query row it keeps a shift (the largest logit met so
  far), the sum of the weights exp (logit - shift), and per feature the sum of weight · key feature. Meeting a
  new tile, the shift grows to the larger of the old shift and the tile's largest logit; the old sums are
  multiplied by exp (old shift - new shift), which re-expresses every old weight against the new shift because
  exp (a - b) · exp (e - a) = exp (e - b), and the tile's own weights are added. After all key rows the quotient
  of the two sums is the attention row: the common factor exp (-shift) cancels.

  Everything is proved on the reals and carried to the extended reals by the coercion; the only facts about the
  extended reals used are that a maximum of finitely many reals (at least one) folded from -∞ is a real, that
  -∞ minus a real is -∞, and that exp (-∞) = 0.
-/
import proofs.«102668_j30167850287543_2_alg».proof.Proof.Spec

noncomputable section

open scoped BigOperators

namespace Attn

open Idealize.ShloMosaic

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

/-- The maximum of finitely many reals (at least one of them), folded from -∞, is a real. -/
theorem fold_max_coe {ι : Type*} [Fintype ι] [Nonempty ι] (s : ι → EReal) (f : ι → ℝ)
    (hs : ∀ j, s j = ((f j : ℝ) : EReal)) :
    ∃ ρ : ℝ, (Finset.univ : Finset ι).fold max ⊥ s = (ρ : EReal) := by
  obtain ⟨j₀⟩ := ‹Nonempty ι›
  have htop : (Finset.univ : Finset ι).fold max ⊥ s ≠ ⊤ := by
    refine ne_of_lt ((Finset.fold_max_lt _).mpr ⟨bot_lt_top, fun j _ => ?_⟩)
    rw [hs j]; exact EReal.coe_lt_top _
  have hbot : (Finset.univ : Finset ι).fold max ⊥ s ≠ ⊥ := by
    refine ne_of_gt (lt_of_lt_of_le (EReal.bot_lt_coe (f j₀)) ?_)
    rw [← hs j₀]
    exact (Finset.le_fold_max _).mpr (Or.inr ⟨j₀, Finset.mem_univ _, le_rfl⟩)
  exact ⟨_, (EReal.coe_toReal htop hbot).symm⟩

/-- Re-expressing the old weighted sum against a new shift and adding a disjoint tile's weighted sum gives the
    weighted sum over the union, on the reals. -/
theorem real_step (e w : Fin 2048 → ℝ) (S : Finset (Fin 2048)) {t : Fin 256 → Fin 2048}
    (ht : Function.Injective t) (hd : Disjoint S (Finset.univ.image t)) (μ ν : ℝ) :
    Real.exp (μ - ν) * (∑ j ∈ S, Real.exp (e j - μ) * w j) + ∑ j : Fin 256, Real.exp (e (t j) - ν) * w (t j)
      = ∑ j ∈ S ∪ Finset.univ.image t, Real.exp (e j - ν) * w j := by
  rw [Finset.sum_union hd, Finset.sum_image (fun a _ b _ h => ht h), Finset.mul_sum]
  refine congrArg (· + _) (Finset.sum_congr rfl fun j _ => ?_)
  rw [← mul_assoc, ← Real.exp_add]
  refine congrArg (fun z => Real.exp z * w j) ?_
  ring

/-- One tile of the running softmax, in the general form: s are the tile's logits, kv its key rows, m' the
    new maximum cell. -/
theorem RowState.step_of {q : Fin 1024 → ℝ} {K : Fin 2048 → Fin 1024 → ℝ} {S : Finset (Fin 2048)}
    {mv lv : EReal} {av : Fin 1024 → EReal} {t : Fin 256 → Fin 2048}
    (ht : Function.Injective t) (hd : Disjoint S (Finset.univ.image t)) (h : RowState q K S mv lv av)
    (s : Fin 256 → EReal) (hs : ∀ j, s j = ((dotRow q (K (t j)) : ℝ) : EReal))
    (kv : Fin 256 → Fin 1024 → EReal) (hk : ∀ j d, kv j d = ((K (t j) d : ℝ) : EReal))
    (m' : EReal) (hm : m' = max mv ((Finset.univ : Finset (Fin 256)).fold max ⊥ s)) :
    RowState q K (S ∪ Finset.univ.image t) m'
      (Ideal.exp (mv - m') * lv + ∑ j, Ideal.exp (s j - m'))
      (fun d => Ideal.exp (mv - m') * av d + ∑ j, Ideal.exp (s j - m') * kv j d) := by
  obtain ⟨μ, rfl, rfl, hav⟩ := h
  haveI : Nonempty (Fin 256) := ⟨⟨0, by norm_num⟩⟩
  obtain ⟨ρ, hρ⟩ := fold_max_coe s (fun j => dotRow q (K (t j))) hs
  rw [hρ, ← coe_max] at hm
  subst hm
  refine ⟨max μ ρ, rfl, ?_, fun d => ?_⟩ <;> beta_reduce
  · have e1 : ∀ j, Ideal.exp (s j - ((max μ ρ : ℝ) : EReal))
        = ((Real.exp (dotRow q (K (t j)) - max μ ρ) * (fun _ => (1 : ℝ)) (t j) : ℝ) : EReal) := fun j => by
      rw [hs j, ← EReal.coe_sub, Ideal.exp_coe, mul_one]
    rw [Finset.sum_congr rfl fun j _ => e1 j, ← coe_sum, ← EReal.coe_sub, Ideal.exp_coe, ← EReal.coe_mul,
      ← EReal.coe_add]
    have := real_step (fun j => dotRow q (K j)) (fun _ => 1) S ht hd μ (max μ ρ)
    simp only [mul_one] at this ⊢
    rw [this]
  · have e1 : ∀ j, Ideal.exp (s j - ((max μ ρ : ℝ) : EReal)) * kv j d
        = ((Real.exp (dotRow q (K (t j)) - max μ ρ) * K (t j) d : ℝ) : EReal) := fun j => by
      rw [hs j, hk j d, ← EReal.coe_sub, Ideal.exp_coe, ← EReal.coe_mul]
    rw [Finset.sum_congr rfl fun j _ => e1 j, ← coe_sum, ← EReal.coe_sub, Ideal.exp_coe, hav d, ← EReal.coe_mul,
      ← EReal.coe_add]
    exact congrArg _ (real_step (fun j => dotRow q (K j)) (fun j => K j d) S ht hd μ (max μ ρ))

/-- The first tile, in the general form: the cells start at -∞, 0 and 0. -/
theorem RowState.first_of {q : Fin 1024 → ℝ} {K : Fin 2048 → Fin 1024 → ℝ} {t : Fin 256 → Fin 2048}
    (ht : Function.Injective t)
    (s : Fin 256 → EReal) (hs : ∀ j, s j = ((dotRow q (K (t j)) : ℝ) : EReal))
    (kv : Fin 256 → Fin 1024 → EReal) (hk : ∀ j d, kv j d = ((K (t j) d : ℝ) : EReal))
    (m' : EReal) (hm : m' = max ⊥ ((Finset.univ : Finset (Fin 256)).fold max ⊥ s)) :
    RowState q K (Finset.univ.image t) m'
      (Ideal.exp (⊥ - m') * 0 + ∑ j, Ideal.exp (s j - m'))
      (fun d => Ideal.exp (⊥ - m') * 0 + ∑ j, Ideal.exp (s j - m') * kv j d) := by
  haveI : Nonempty (Fin 256) := ⟨⟨0, by norm_num⟩⟩
  obtain ⟨ρ, hρ⟩ := fold_max_coe s (fun j => dotRow q (K (t j))) hs
  rw [hρ, max_eq_right bot_le] at hm
  subst hm
  refine ⟨ρ, rfl, ?_, fun d => ?_⟩ <;> beta_reduce
  · have e1 : ∀ j, Ideal.exp (s j - ((ρ : ℝ) : EReal))
        = ((Real.exp (dotRow q (K (t j)) - ρ) : ℝ) : EReal) := fun j => by
      rw [hs j, ← EReal.coe_sub, Ideal.exp_coe]
    rw [Finset.sum_congr rfl fun j _ => e1 j, ← coe_sum, mul_zero, zero_add,
      Finset.sum_image (fun a _ b _ h => ht h)]
  · have e1 : ∀ j, Ideal.exp (s j - ((ρ : ℝ) : EReal)) * kv j d
        = ((Real.exp (dotRow q (K (t j)) - ρ) * K (t j) d : ℝ) : EReal) := fun j => by
      rw [hs j, hk j d, ← EReal.coe_sub, Ideal.exp_coe, ← EReal.coe_mul]
    rw [Finset.sum_congr rfl fun j _ => e1 j, ← coe_sum, mul_zero, zero_add,
      Finset.sum_image (fun a _ b _ h => ht h)]

/-- The first tile of the running softmax, with the tile's logits and key rows spelled out. -/
theorem RowState.first {q : Fin 1024 → ℝ} {K : Fin 2048 → Fin 1024 → ℝ} {t : Fin 256 → Fin 2048}
    (ht : Function.Injective t) :
    RowState q K (Finset.univ.image t)
      (max ⊥ ((Finset.univ : Finset (Fin 256)).fold max ⊥ fun j => ((dotRow q (K (t j)) : ℝ) : EReal)))
      (Ideal.exp (⊥ - max ⊥ ((Finset.univ : Finset (Fin 256)).fold max ⊥ fun j => ((dotRow q (K (t j)) : ℝ) : EReal))) * 0
        + ∑ j : Fin 256, Ideal.exp (((dotRow q (K (t j)) : ℝ) : EReal)
            - max ⊥ ((Finset.univ : Finset (Fin 256)).fold max ⊥ fun j => ((dotRow q (K (t j)) : ℝ) : EReal))))
      (fun d => Ideal.exp (⊥ - max ⊥ ((Finset.univ : Finset (Fin 256)).fold max ⊥ fun j => ((dotRow q (K (t j)) : ℝ) : EReal))) * 0
        + ∑ j : Fin 256, Ideal.exp (((dotRow q (K (t j)) : ℝ) : EReal)
            - max ⊥ ((Finset.univ : Finset (Fin 256)).fold max ⊥ fun j => ((dotRow q (K (t j)) : ℝ) : EReal)))
          * ((K (t j) d : ℝ) : EReal)) :=
  RowState.first_of ht _ (fun _ => rfl) _ (fun _ _ => rfl) _ rfl

/-- A later tile of the running softmax, with the tile's logits and key rows spelled out. -/
theorem RowState.step {q : Fin 1024 → ℝ} {K : Fin 2048 → Fin 1024 → ℝ} {S : Finset (Fin 2048)}
    {mv lv : EReal} {av : Fin 1024 → EReal} {t : Fin 256 → Fin 2048}
    (ht : Function.Injective t) (hd : Disjoint S (Finset.univ.image t)) (h : RowState q K S mv lv av) :
    RowState q K (S ∪ Finset.univ.image t)
      (max mv ((Finset.univ : Finset (Fin 256)).fold max ⊥ fun j => ((dotRow q (K (t j)) : ℝ) : EReal)))
      (Ideal.exp (mv - max mv ((Finset.univ : Finset (Fin 256)).fold max ⊥ fun j => ((dotRow q (K (t j)) : ℝ) : EReal))) * lv
        + ∑ j : Fin 256, Ideal.exp (((dotRow q (K (t j)) : ℝ) : EReal)
            - max mv ((Finset.univ : Finset (Fin 256)).fold max ⊥ fun j => ((dotRow q (K (t j)) : ℝ) : EReal))))
      (fun d => Ideal.exp (mv - max mv ((Finset.univ : Finset (Fin 256)).fold max ⊥ fun j => ((dotRow q (K (t j)) : ℝ) : EReal))) * av d
        + ∑ j : Fin 256, Ideal.exp (((dotRow q (K (t j)) : ℝ) : EReal)
            - max mv ((Finset.univ : Finset (Fin 256)).fold max ⊥ fun j => ((dotRow q (K (t j)) : ℝ) : EReal)))
          * ((K (t j) d : ℝ) : EReal)) :=
  RowState.step_of ht hd h _ (fun _ => rfl) _ (fun _ _ => rfl) _ rfl

/-- After all key rows the quotient of the running numerator by the running denominator is the attention row:
    the factor exp (-shift) is common to both and the denominator is positive. -/
theorem RowState.final {q : Fin 1024 → ℝ} {K : Fin 2048 → Fin 1024 → ℝ} {mv lv : EReal} {av : Fin 1024 → EReal}
    (h : RowState q K Finset.univ mv lv av) (d : Fin 1024) :
    Ideal.div (av d) lv = ((attnRow q K d : ℝ) : EReal) := by
  obtain ⟨μ, -, rfl, hav⟩ := h
  have hN : (∑ j : Fin 2048, Real.exp (dotRow q (K j) - μ) * K j d)
      = (∑ j : Fin 2048, Real.exp (dotRow q (K j)) * K j d) * Real.exp (-μ) := by
    rw [Finset.sum_mul]
    refine Finset.sum_congr rfl fun j _ => ?_
    rw [sub_eq_add_neg, Real.exp_add]; ring
  have hD : (∑ j : Fin 2048, Real.exp (dotRow q (K j) - μ))
      = (∑ j : Fin 2048, Real.exp (dotRow q (K j))) * Real.exp (-μ) := by
    rw [Finset.sum_mul]
    refine Finset.sum_congr rfl fun j _ => ?_
    rw [sub_eq_add_neg, Real.exp_add]
  have hpos : 0 < ∑ j : Fin 2048, Real.exp (dotRow q (K j) - μ) :=
    Finset.sum_pos (fun j _ => Real.exp_pos _) ⟨⟨0, by norm_num⟩, Finset.mem_univ _⟩
  rw [hav d, Ideal.div_coe (ne_of_gt hpos), ← EReal.coe_mul]
  refine congrArg _ ?_
  rw [attnRow, hN, hD, mul_one_div, mul_div_mul_right _ _ (ne_of_gt (Real.exp_pos _))]

end Attn

end
-- ==== Proof.PayIdx.lean ====
/-
  The arithmetic of the attention kernel's body read at one index.

  The body's pure values are named terms over the blocks it loads: the query block X, one key tile Yt, and the
  three running cells (maximum, denominator, numerator). Read at row r (and key j of the tile, or feature d)
  they are:
    the logits tile        ∑ k, X r k · Yt j k                          (a contraction over the features),
    the new maximum cell   max (old maximum) (the largest logit of the row over the tile),
    the rescaling factor   exp (old maximum - new maximum),
    the weights            exp (logit - new maximum),
    the new denominator    factor · old denominator + ∑ j, weight j,
    the new numerator      factor · old numerator d + ∑ j, weight j · Yt j d   (a contraction over the tile's keys),
    the result             numerator d / denominator.
  Each layout operation (dropping or adding a unit axis, keeping a reduced axis as a unit axis, broadcasting a
  column over the lanes) reads one element of its operand; a lane reduction is a sum or a fold of max over the
  256 keys of the tile; rounding to sixteen bits is the identity on exact values. With the blocks' elements
  real, these are exactly the quantities of one tile of a running softmax.
-/
import proofs.«102668_j30167850287543_2_alg».proof.Proof.Gen.KernelIdeal.Skeleton
import proofs.«102668_j30167850287543_2_alg».proof.Proof.RowMath
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Attn.Pay

open Idealize.ShloMosaic Idealize.ShloMosaic.ValueIdx Cert.KernelIdeal Cert.KernelIdeal.Gen

/-! ## Layout operations at coordinates -/

/-- A reduced vector of 1024 rows kept as a column reads its row. -/
theorem keepdims_at (v : FVec Ideal S1024 .f32) (r : Fin 1024) (c : Fin 1) :
    shapeCast S1024x1 v shapeCasts_S1024_S1024x1 (ix2 r c) = v (ix1 r) :=
  shapeCast_apply v shapeCasts_S1024_S1024x1 (ix2 r c) (ix1 r) (by
    have hc : c.val = 0 := by omega
    rw [Shape.rowMajor_val_one, Shape.rowMajor_val_two]
    show r.val = r.val * 1 + c.val
    rw [hc, Nat.mul_one, Nat.add_zero])

/-- A column broadcast over the 256 lanes reads the column at its row. -/
theorem bcast256_at (v : FVec Ideal S1024x1 .f32) (r : Fin 1024) (j : Fin 256) :
    broadcastTo S1024x256 v broadcasts_S1024x1_S1024x256 (ix2 r j) = v (ix2 r (0 : Fin 1)) :=
  broadcastTo_apply v broadcasts_S1024x1_S1024x256 (ix2 r j) (ix2 r (0 : Fin 1)) fun a => by
    match a with
    | ⟨0, _⟩ => rfl
    | ⟨1, _⟩ => rfl

/-- A column broadcast over the 1024 features reads the column at its row. -/
theorem bcast1024_at (v : FVec Ideal S1024x1 .f32) (r : Fin 1024) (d : Fin 1024) :
    broadcastTo S1024x1024 v broadcasts_S1024x1_S1024x1024 (ix2 r d) = v (ix2 r (0 : Fin 1)) :=
  broadcastTo_apply v broadcasts_S1024x1_S1024x1024 (ix2 r d) (ix2 r (0 : Fin 1)) fun a => by
    match a with
    | ⟨0, _⟩ => rfl
    | ⟨1, _⟩ => rfl

/-- The bit pattern of -∞ is -∞, the zero pattern is zero. -/
theorem ofBits_neg_inf : Ideal.ofBits .f32 0xFF800000#32 = ⊥ := by simp [Ideal.ofBits, Ideal.ieee]

/-! ## The key tile and the logits tile -/

/-- The key tile without its unit axis. -/
theorem pay8_at (Yt : Vec Ideal S1x256x1024 .f32) (j : Fin 256) (d : Fin 1024) :
    k0_pay8 Yt (ix2 j d) = Yt (ix3 (0 : Fin 1) j d) :=
  shapeCast_1ab_ab_apply Yt shapeCasts_S1x256x1024_S256x1024 j d

/-- The query block without its unit axis. -/
theorem xcast_at (X : Vec Ideal S1x1024x1024 .f32) (r d : Fin 1024) :
    shapeCast S1024x1024 X shapeCasts_S1x1024x1024_S1024x1024 (ix2 r d) = X (ix3 (0 : Fin 1) r d) :=
  shapeCast_1ab_ab_apply X shapeCasts_S1x1024x1024_S1024x1024 r d

theorem dotQK_lhs0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl
theorem dotQK_rhs0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl

/-- The contraction of a query row against a key row over the 1024 features, for any two matrices. -/
theorem matmulQK_at (A : FVec Ideal S1024x1024 .f32) (B : FVec Ideal S256x1024 .f32) (r : Fin 1024) (j : Fin 256) :
    FloatOps.matmul dot_S1024x1024_S256x1024_S1024x256_1_1_0_0_n_n (some .fp32) A B
        (constant S1024x256 .f32 0x00000000#32) (ix2 r j)
      = ∑ k : Fin 1024, A (ix2 r k) * B (ix2 j k) := by
  rw [Ideal.matmul_constant_zero_apply,
    ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 r j)
      ((contrEquiv1 dot_S1024x1024_S256x1024_S1024x256_1_1_0_0_n_n 1024 rfl rfl).symm k) = ix2 r k :=
    funext fun a => Fin.ext (by
      match a with
      | ⟨0, _⟩ => exact dotQK_lhs0 _ _
      | ⟨1, _⟩ => exact (dot_S1024x1024_S256x1024_S1024x256_1_1_0_0_n_n.lhsIdx_val_of_single rfl _ _).trans hk)
  have er : dot_S1024x1024_S256x1024_S1024x256_1_1_0_0_n_n.rhsIdx (ix2 r j)
      ((contrEquiv1 dot_S1024x1024_S256x1024_S1024x256_1_1_0_0_n_n 1024 rfl rfl).symm k) = ix2 j k :=
    funext fun a => Fin.ext (by
      match a with
      | ⟨0, _⟩ => exact dotQK_rhs0 _ _
      | ⟨1, _⟩ => exact (dot_S1024x1024_S256x1024_S1024x256_1_1_0_0_n_n.rhsIdx_val_of_single rfl _ _).trans hk)
  rw [el, er]

/-- The logits tile: row r against key j of the tile. -/
theorem pay9_at (X : Vec Ideal S1x1024x1024 .f32) (Yt : Vec Ideal S1x256x1024 .f32) (r : Fin 1024) (j : Fin 256) :
    k0_pay9 X Yt (ix2 r j) = ∑ k : Fin 1024, X (ix3 (0 : Fin 1) r k) * Yt (ix3 (0 : Fin 1) j k) := by
  refine (matmulQK_at (shapeCast S1024x1024 X shapeCasts_S1x1024x1024_S1024x1024) (k0_pay8 Yt) r j).trans ?_
  exact Finset.sum_congr rfl fun k _ => by rw [xcast_at, pay8_at]

/-! ## Lane reductions -/

/-- The index of key j in row r, as the lane reduction inserts it. -/
theorem lift_at (r : Fin 1024) (j : Fin 256) : reduces_S1024x256_S1024.lift (ix1 r) j = ix2 r j :=
  funext fun c => Fin.ext (by
    match c with
    | ⟨0, _⟩ => rfl
    | ⟨1, _⟩ => rfl)

/-- The lane maximum of row r: the fold of max from -∞ over the 256 keys. -/
theorem rowmax_at (src : FVec Ideal S1024x256 .f32) (r : Fin 1024) :
    multiReduction .maximumf [1] S1024 src 0xFF800000#32 reduces_S1024x256_S1024 (.inl rfl) rfl (ix1 r)
      = (Finset.univ : Finset (Fin 256)).fold max ⊥ (fun j => src (ix2 r j)) := by
  refine (Ideal.multiReduction_maximumf_single src _ reduces_S1024x256_S1024 _ _ (ix1 r)).trans ?_
  show (Finset.univ : Finset (Fin 256)).fold max (Ideal.ofBits .f32 0xFF800000#32)
      (src ∘ reduces_S1024x256_S1024.lift (ix1 r)) = _
  have e : (src ∘ reduces_S1024x256_S1024.lift (ix1 r)) = fun j : Fin 256 => src (ix2 r j) :=
    funext fun j => congrArg src (lift_at r j)
  rw [ofBits_neg_inf, e]
  rfl

/-- The lane sum of row r: the sum over the 256 keys. -/
theorem rowsum_at (src : FVec Ideal S1024x256 .f32) (r : Fin 1024) :
    multiReduction .add [1] S1024 src 0x00000000#32 reduces_S1024x256_S1024 (.inl rfl) rfl (ix1 r)
      = ∑ j : Fin 256, src (ix2 r j) := by
  refine (Ideal.multiReduction_add_single src _ reduces_S1024x256_S1024 _ _ (ix1 r)).trans ?_
  show ∑ j : Fin 256, src (reduces_S1024x256_S1024.lift (ix1 r) j) = _
  exact Finset.sum_congr rfl fun j _ => congrArg src (lift_at r j)

/-! ## The running cells after one tile -/

/-- The new maximum cell of row r. -/
theorem pay10_at (X : Vec Ideal S1x1024x1024 .f32) (Yt : Vec Ideal S1x256x1024 .f32) (mo : Vec Ideal S1024x1 .f32)
    (r : Fin 1024) :
    k0_pay10 X Yt mo (ix2 r (0 : Fin 1))
      = max (mo (ix2 r (0 : Fin 1)))
          ((Finset.univ : Finset (Fin 256)).fold max ⊥ fun j => k0_pay9 X Yt (ix2 r j)) := by
  show maximumf (F := Ideal) (φ := .f32) mo
      (shapeCast S1024x1 (multiReduction .maximumf [1] S1024 (k0_pay9 X Yt) 0xFF800000#32 reduces_S1024x256_S1024
        (.inl rfl) rfl) shapeCasts_S1024_S1024x1) (ix2 r (0 : Fin 1)) = _
  rw [maximumf_apply, keepdims_at, rowmax_at]

/-- The rescaling factor of row r. -/
theorem pay11_at (X : Vec Ideal S1x1024x1024 .f32) (Yt : Vec Ideal S1x256x1024 .f32) (mo mo' : Vec Ideal S1024x1 .f32)
    (r : Fin 1024) :
    k0_pay11 X Yt mo mo' (ix2 r (0 : Fin 1))
      = Ideal.exp (mo' (ix2 r (0 : Fin 1)) - k0_pay10 X Yt mo (ix2 r (0 : Fin 1))) := rfl

/-- The weight of key j in row r. -/
theorem pay12_at (X : Vec Ideal S1x1024x1024 .f32) (Yt : Vec Ideal S1x256x1024 .f32) (mo : Vec Ideal S1024x1 .f32)
    (r : Fin 1024) (j : Fin 256) :
    k0_pay12 X Yt mo (ix2 r j)
      = Ideal.exp (k0_pay9 X Yt (ix2 r j) - k0_pay10 X Yt mo (ix2 r (0 : Fin 1))) := by
  show Ideal.exp (k0_pay9 X Yt (ix2 r j)
      - broadcastTo S1024x256 (k0_pay10 X Yt mo) broadcasts_S1024x1_S1024x256 (ix2 r j)) = _
  rw [bcast256_at]

/-- The new denominator cell of row r. -/
theorem pay13_at (X : Vec Ideal S1x1024x1024 .f32) (Yt : Vec Ideal S1x256x1024 .f32)
    (mo mo' lo : Vec Ideal S1024x1 .f32) (r : Fin 1024) :
    k0_pay13 X Yt mo mo' lo (ix2 r (0 : Fin 1))
      = k0_pay11 X Yt mo mo' (ix2 r (0 : Fin 1)) * lo (ix2 r (0 : Fin 1))
        + ∑ j : Fin 256, k0_pay12 X Yt mo (ix2 r j) := by
  show shapeCast S1024x1 (addf (mulf (k0_pay11 X Yt mo mo') lo)
      (shapeCast S1024x1 (multiReduction .add [1] S1024 (k0_pay12 X Yt mo) 0x00000000#32 reduces_S1024x256_S1024
        (.inl rfl) rfl) shapeCasts_S1024_S1024x1)) shapeCasts_S1024x1_S1024x1 (ix2 r (0 : Fin 1)) = _
  rw [shapeCast_self]
  show k0_pay11 X Yt mo mo' (ix2 r (0 : Fin 1)) * lo (ix2 r (0 : Fin 1))
      + shapeCast S1024x1 (multiReduction .add [1] S1024 (k0_pay12 X Yt mo) 0x00000000#32 reduces_S1024x256_S1024
        (.inl rfl) rfl) shapeCasts_S1024_S1024x1 (ix2 r (0 : Fin 1)) = _
  rw [keepdims_at, rowsum_at]

theorem dotPV_lhs0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem dotPV_rhs1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The contraction of a row of weights against a column of the key tile over the 256 keys, for any two matrices. -/
theorem matmulPV_at (P : FVec Ideal S1024x256 .bf16) (V : FVec Ideal S256x1024 .bf16) (r d : Fin 1024) :
    FloatOps.matmul dot_S1024x256_S256x1024_S1024x1024_1_0_0_1_n_n none P V
        (constant S1024x1024 .f32 0x00000000#32) (ix2 r d)
      = ∑ j : Fin 256, P (ix2 r j) * V (ix2 j d) := by
  rw [Ideal.matmul_constant_zero_apply,
    ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r d)
      ((contrEquiv1 dot_S1024x256_S256x1024_S1024x1024_1_0_0_1_n_n 256 rfl rfl).symm k) = ix2 r k :=
    funext fun a => Fin.ext (by
      match a with
      | ⟨0, _⟩ => exact dotPV_lhs0 _ _
      | ⟨1, _⟩ => exact (dot_S1024x256_S256x1024_S1024x1024_1_0_0_1_n_n.lhsIdx_val_of_single rfl _ _).trans hk)
  have er : dot_S1024x256_S256x1024_S1024x1024_1_0_0_1_n_n.rhsIdx (ix2 r d)
      ((contrEquiv1 dot_S1024x256_S256x1024_S1024x1024_1_0_0_1_n_n 256 rfl rfl).symm k) = ix2 k d :=
    funext fun a => Fin.ext (by
      match a with
      | ⟨0, _⟩ => exact (dot_S1024x256_S256x1024_S1024x1024_1_0_0_1_n_n.rhsIdx_val_of_single rfl _ _).trans hk
      | ⟨1, _⟩ => exact dotPV_rhs1 _ _)
  rw [el, er]

/-- The new numerator cell of row r at feature d. -/
theorem pay14_at (X : Vec Ideal S1x1024x1024 .f32) (Yt : Vec Ideal S1x256x1024 .f32) (mo mo' : Vec Ideal S1024x1 .f32)
    (ao : Vec Ideal S1024x1024 .f32) (r d : Fin 1024) :
    k0_pay14 X Yt mo mo' ao (ix2 r d)
      = k0_pay11 X Yt mo mo' (ix2 r (0 : Fin 1)) * ao (ix2 r d)
        + ∑ j : Fin 256, k0_pay12 X Yt mo (ix2 r j) * Yt (ix3 (0 : Fin 1) j d) := by
  show broadcastTo S1024x1024 (k0_pay11 X Yt mo mo') broadcasts_S1024x1_S1024x1024 (ix2 r d) * ao (ix2 r d)
      + FloatOps.matmul dot_S1024x256_S256x1024_S1024x1024_1_0_0_1_n_n none
          (truncf .bf16 (k0_pay12 X Yt mo) bitsLt_bf16_f32) (truncf .bf16 (k0_pay8 Yt) bitsLt_bf16_f32)
          (constant S1024x1024 .f32 0x00000000#32) (ix2 r d) = _
  rw [bcast1024_at, matmulPV_at]
  refine congrArg (_ + ·) (Finset.sum_congr rfl fun j _ => ?_)
  show k0_pay12 X Yt mo (ix2 r j) * k0_pay8 Yt (ix2 j d) = _
  rw [pay8_at]

/-! ## Stores that change nothing, the initial cells, and the final quotient -/

theorem pay1_eq (v : FVec Ideal S1024x1024 .f32) : k0_pay1 v = v := shapeCast_self v _
theorem pay2_eq (v : FVec Ideal S1024x1 .f32) : k0_pay2 v = v := shapeCast_self v _
theorem pay7_eq (X : Vec Ideal S1x1024x1024 .f32) : k0_pay7 X = X := shapeCast_shapeCast X _ _

/-- The maximum cell starts at -∞. -/
theorem pay4_at (i : S1024x1.Idx) : k0_pay4 (F := Ideal) i = ⊥ := by
  show shapeCast S1024x1 (broadcast S1024x1 (Scalar.ofBits (F := Ideal) .f32 0xFF800000#32))
      shapeCasts_S1024x1_S1024x1 i = _
  rw [shapeCast_self]
  exact ofBits_neg_inf

/-- The denominator cell starts at zero. -/
theorem pay5_at (i : S1024x1.Idx) : k0_pay5 (F := Ideal) i = 0 := by
  show shapeCast S1024x1 (broadcast S1024x1 (Scalar.ofBits (F := Ideal) .f32 0x00000000#32))
      shapeCasts_S1024x1_S1024x1 i = _
  rw [shapeCast_self]
  exact Ideal.ofBits_zero_f32

/-- The numerator cell starts at zero. -/
theorem pay6_at (i : S1024x1024.Idx) : k0_pay6 (F := Ideal) i = 0 := by
  show shapeCast S1024x1024 (broadcast S1024x1024 (Scalar.ofBits (F := Ideal) .f32 0x00000000#32))
      shapeCasts_S1024x1024_S1024x1024 i = _
  rw [shapeCast_self]
  exact Ideal.ofBits_zero_f32

/-- The stored result of row r at feature d: numerator over denominator. -/
theorem pay3_at (ao : Vec Ideal S1024x1024 .f32) (lo : Vec Ideal S1024x1 .f32) (r d : Fin 1024) :
    k0_pay3 ao lo (ix3 (0 : Fin 1) r d) = Ideal.div (ao (ix2 r d)) (lo (ix2 r (0 : Fin 1))) := by
  show shapeCast S1x1024x1024 (divf (F := Ideal) (φ := .f32) ao
        (broadcastTo (α := Ideal .f32) S1024x1024 lo broadcasts_S1024x1_S1024x1024))
      shapeCasts_S1024x1024_S1x1024x1024 (ix3 (0 : Fin 1) r d) = _
  rw [shapeCast_ab_1ab_apply]
  show Ideal.div (ao (ix2 r d))
      (broadcastTo (α := Ideal .f32) S1024x1024 lo broadcasts_S1024x1_S1024x1024 (ix2 r d)) = _
  rw [bcast1024_at]

/-! ## One tile of the running softmax, and the result -/

section Tile

variable (X : Vec Ideal S1x1024x1024 .f32) (Yt : Vec Ideal S1x256x1024 .f32)
  (qb : Fin 1024 → Fin 1024 → ℝ) (K : Fin 2048 → Fin 1024 → ℝ) (t : Fin 256 → Fin 2048)

/-- With real blocks, the logit of row r against key j of the tile is the inner product of the two rows. -/
theorem logit_at (hX : ∀ r d, X (ix3 (0 : Fin 1) r d) = ((qb r d : ℝ) : EReal))
    (hY : ∀ j d, Yt (ix3 (0 : Fin 1) j d) = ((K (t j) d : ℝ) : EReal)) (r : Fin 1024) (j : Fin 256) :
    k0_pay9 X Yt (ix2 r j) = ((dotRow (qb r) (K (t j)) : ℝ) : EReal) := by
  rw [pay9_at, dotRow, coe_sum]
  exact Finset.sum_congr rfl fun k _ => by rw [hX, hY, EReal.coe_mul]

/-- The cells after a tile, in terms of the cells before it: the denominator. -/
theorem denom_at (mo lo : Vec Ideal S1024x1 .f32) (r : Fin 1024) :
    k0_pay13 X Yt mo mo lo (ix2 r (0 : Fin 1))
      = Ideal.exp (mo (ix2 r (0 : Fin 1)) - k0_pay10 X Yt mo (ix2 r (0 : Fin 1))) * lo (ix2 r (0 : Fin 1))
        + ∑ j : Fin 256, Ideal.exp (k0_pay9 X Yt (ix2 r j) - k0_pay10 X Yt mo (ix2 r (0 : Fin 1))) := by
  rw [pay13_at, pay11_at]
  exact congrArg (_ + ·) (Finset.sum_congr rfl fun j _ => pay12_at X Yt mo r j)

/-- The cells after a tile, in terms of the cells before it: the numerator. -/
theorem numer_at (mo : Vec Ideal S1024x1 .f32) (ao : Vec Ideal S1024x1024 .f32) (r d : Fin 1024) :
    k0_pay14 X Yt mo mo ao (ix2 r d)
      = Ideal.exp (mo (ix2 r (0 : Fin 1)) - k0_pay10 X Yt mo (ix2 r (0 : Fin 1))) * ao (ix2 r d)
        + ∑ j : Fin 256, Ideal.exp (k0_pay9 X Yt (ix2 r j) - k0_pay10 X Yt mo (ix2 r (0 : Fin 1)))
            * Yt (ix3 (0 : Fin 1) j d) := by
  rw [pay14_at, pay11_at]
  exact congrArg (_ + ·) (Finset.sum_congr rfl fun j _ => by rw [pay12_at])

/-- A later tile: from the state after the key rows S to the state after S and the tile's rows. -/
theorem tile_step {S : Finset (Fin 2048)} (mo lo : Vec Ideal S1024x1 .f32) (ao : Vec Ideal S1024x1024 .f32)
    (hX : ∀ r d, X (ix3 (0 : Fin 1) r d) = ((qb r d : ℝ) : EReal))
    (hY : ∀ j d, Yt (ix3 (0 : Fin 1) j d) = ((K (t j) d : ℝ) : EReal))
    (ht : Function.Injective t) (hd : Disjoint S (Finset.univ.image t)) (r : Fin 1024)
    (h : RowState (qb r) K S (mo (ix2 r (0 : Fin 1))) (lo (ix2 r (0 : Fin 1))) (fun d => ao (ix2 r d))) :
    RowState (qb r) K (S ∪ Finset.univ.image t)
      (k0_pay2 (k0_pay10 X Yt mo) (ix2 r (0 : Fin 1)))
      (k0_pay13 X Yt mo mo lo (ix2 r (0 : Fin 1)))
      (fun d => k0_pay1 (k0_pay14 X Yt mo mo ao) (ix2 r d)) := by
  have hstep := RowState.step_of ht hd h (fun j => k0_pay9 X Yt (ix2 r j)) (logit_at X Yt qb K t hX hY r)
    (fun j d => Yt (ix3 (0 : Fin 1) j d)) hY (k0_pay10 X Yt mo (ix2 r (0 : Fin 1))) (pay10_at X Yt mo r)
  rw [pay2_eq, pay1_eq, denom_at,
    show (fun d => k0_pay14 X Yt mo mo ao (ix2 r d)) = _ from funext (numer_at X Yt mo ao r)]
  exact hstep

/-- The first tile: the cells start at -∞, 0 and 0. -/
theorem tile_first (hX : ∀ r d, X (ix3 (0 : Fin 1) r d) = ((qb r d : ℝ) : EReal))
    (hY : ∀ j d, Yt (ix3 (0 : Fin 1) j d) = ((K (t j) d : ℝ) : EReal))
    (ht : Function.Injective t) (r : Fin 1024) :
    RowState (qb r) K (Finset.univ.image t)
      (k0_pay2 (k0_pay10 X Yt (k0_pay4 (F := Ideal))) (ix2 r (0 : Fin 1)))
      (k0_pay13 X Yt (k0_pay4 (F := Ideal)) (k0_pay4 (F := Ideal)) (k0_pay5 (F := Ideal)) (ix2 r (0 : Fin 1)))
      (fun d => k0_pay1 (k0_pay14 X Yt (k0_pay4 (F := Ideal)) (k0_pay4 (F := Ideal)) (k0_pay6 (F := Ideal)))
        (ix2 r d)) := by
  have hM : k0_pay10 X Yt (k0_pay4 (F := Ideal)) (ix2 r (0 : Fin 1))
      = max ⊥ ((Finset.univ : Finset (Fin 256)).fold max ⊥ fun j => k0_pay9 X Yt (ix2 r j)) := by
    rw [pay10_at, pay4_at]
  have hfirst := RowState.first_of ht (fun j => k0_pay9 X Yt (ix2 r j)) (logit_at X Yt qb K t hX hY r)
    (fun j d => Yt (ix3 (0 : Fin 1) j d)) hY (k0_pay10 X Yt (k0_pay4 (F := Ideal)) (ix2 r (0 : Fin 1))) hM
  have e14 : (fun d => k0_pay14 X Yt (k0_pay4 (F := Ideal)) (k0_pay4 (F := Ideal)) (k0_pay6 (F := Ideal)) (ix2 r d))
      = fun d => Ideal.exp (⊥ - k0_pay10 X Yt (k0_pay4 (F := Ideal)) (ix2 r (0 : Fin 1))) * 0
          + ∑ j : Fin 256, Ideal.exp (k0_pay9 X Yt (ix2 r j) - k0_pay10 X Yt (k0_pay4 (F := Ideal)) (ix2 r (0 : Fin 1)))
              * Yt (ix3 (0 : Fin 1) j d) :=
    funext fun d => by rw [numer_at, pay4_at, pay6_at]
  rw [pay2_eq, pay1_eq, denom_at, pay4_at, pay5_at, e14]
  exact hfirst

/-- After all key rows the stored quotient is the attention row. -/
theorem out_final (mo lo : Vec Ideal S1024x1 .f32) (ao : Vec Ideal S1024x1024 .f32) (r d : Fin 1024)
    (h : RowState (qb r) K Finset.univ (mo (ix2 r (0 : Fin 1))) (lo (ix2 r (0 : Fin 1))) (fun d => ao (ix2 r d))) :
    k0_pay3 ao lo (ix3 (0 : Fin 1) r d) = ((attnRow (qb r) K d : ℝ) : EReal) := by
  rw [pay3_at]
  exact RowState.final h d

/-- The query block is stored as it is. -/
theorem pass_through (r d : Fin 1024) : k0_pay7 X (ix3 (0 : Fin 1) r d) = X (ix3 (0 : Fin 1) r d) :=
  congrFun (pay7_eq X) _

end Tile

end Attn.Pay

end
-- ==== Proof.OutBlock.lean ====
/-
  What the output's staging buffer holds when it is written back.

  The output window is never fetched: what the body finds in its buffer at a point is what the body left there at the
  point before, unless that point wrote the block back. Within one query tile (eight consecutive points, one per key
  tile) the first point writes the query block into the features below 1024 and leaves the rest as found, the points in
  between leave everything as found, and the last point writes numerator over denominator into the features from 1024
  on. So at every point of the tile but the first, the features below 1024 of what the body finds are the query block's
  — that is, the query array's entries at the tile's batch and rows — and what the last point leaves is the query
  array's entries in the features below 1024 and the quotient of the running cells in the features from 1024 on.
-/
import proofs.«102668_j30167850287543_2_alg».proof.Proof.BodyI.Data
import proofs.«102668_j30167850287543_2_alg».proof.Proof.PayIdx
import proofs.«102668_j30167850287543_2_alg».proof.Proof.Blocks

set_option maxRecDepth 16384

noncomputable section

namespace Attn.Out

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat RDat Cfg Window)
open Attn.Blk

variable (m : (ℓ : Loc nD τ sig) → Buf (Elt Ideal) ℓ)

/-- The output window is fetched at no point. -/
theorem fetch_out : ∀ t : Fin cfg0.N, (cfg0.win 2).fetch t = false :=
  (by decide +kernel : ∀ t : Fin grid0.N, win0_2.fetch t = false)

/-- Two consecutive points are in one batch and one query tile unless the first is a last key tile. -/
theorem same_tile (n : ℕ) (hn : n + 1 < cfg0.N) (hn' : n < cfg0.N) (h : n % 8 ≠ 7) :
    bOf ⟨n, hn'⟩ = bOf ⟨n + 1, hn⟩ ∧ ∀ r : Fin 1024, qRow ⟨n, hn'⟩ r = qRow ⟨n + 1, hn⟩ r := by
  refine ⟨Fin.ext ?_, fun r => Fin.ext ?_⟩
  · show n / 16 = (n + 1) / 16; omega
  · show 1024 * ((n / 8) % 2) + r.val = 1024 * (((n + 1) / 8) % 2) + r.val; omega

/-- A block index of the output, with its unit coordinate spelled 0. -/
theorem ix_unit (o : S1x1024x2048.Idx) (d : Fin 1024) :
    ix3 (n0 := 1) (n1 := 1024) (n2 := 1024) (o 0) (o 1) d = ix3 (n0 := 1) 0 (⟨(o 1).val, (o 1).isLt⟩ : Fin 1024) d := by
  have h0 : (o 0).val < 1 := (o 0).isLt
  funext a
  match a with
  | ⟨0, _⟩ => exact Fin.ext (by show (o 0).val = 0; omega)
  | ⟨1, _⟩ => rfl
  | ⟨2, _⟩ => rfl

/-- At every point but a first key tile, the features below 1024 of what the body finds in the output's buffer are the
    query array's entries at the point's batch and query tile (by induction on the position). -/
theorem left_of_finds_aux (c : Dev nD) : ∀ (n : ℕ) (hn : n < cfg0.N), n % 8 ≠ 0 → ∀ Y, (rel m c).Finds 2 ⟨n, hn⟩ Y →
    ∀ (o : S1x1024x2048.Idx) (h : (o 2).val < 1024),
      Y o = V m c main_arg0 (ix3 (bOf ⟨n, hn⟩) (qRow ⟨n, hn⟩ ⟨(o 1).val, (o 1).isLt⟩) (⟨(o 2).val, h⟩ : Fin 1024)) := by
  intro n
  induction n with
  | zero => intro hn h0; exact absurd rfl h0
  | succ n ih =>
    intro hn h0 Y hF o h
    have hn' : n < cfg0.N := Nat.lt_of_succ_lt hn
    rw [(rel m c).finds_of_pos (fetch_out _) (Nat.succ_ne_zero n)] at hF
    have hF' : (cfg0.win 2).flush ⟨n, hn'⟩ = true ∨ (rel m c).Leaves 2 ⟨n, hn'⟩ Y := hF
    rcases hF' with hfl | ⟨Y', hY', hA⟩
    · have h7 : n % 8 = 7 := (flush0_2 ⟨n, hn'⟩).1 hfl
      omega
    · rw [rel_after_out] at hA
      unfold outRel at hA
      by_cases hz : n % 8 = 0
      · -- the point before is a first key tile: it wrote the query block here
        rw [if_pos hz] at hA
        obtain ⟨eb, eq⟩ := same_tile n hn hn' (by omega)
        rw [hA, ← eb, ← eq]
        show outFirst (xAt m c ⟨n, hn'⟩) Y' o = _
        unfold outFirst
        rw [dif_pos h, Attn.Pay.pay7_eq, ix_unit o ⟨(o 2).val, h⟩]
        exact x_block_apply m c ⟨n, hn'⟩ _ _
      · -- the point before left the buffer as it found it
        have h7 : n % 8 ≠ 7 := by omega
        rw [if_neg hz, if_neg h7] at hA
        obtain ⟨eb, eq⟩ := same_tile n hn hn' h7
        rw [hA, ← eb, ← eq]
        exact ih hn' hz Y' hY' o h

/-- At every point but a first key tile, the features below 1024 of what the body finds in the output's buffer are the
    query array's entries at the point's batch and query tile. -/
theorem left_of_finds (c : Dev nD) (t : Fin cfg0.N) (h0 : t.val % 8 ≠ 0) (Y) (hF : (rel m c).Finds 2 t Y)
    (o : S1x1024x2048.Idx) (h : (o 2).val < 1024) :
    Y o = V m c main_arg0 (ix3 (bOf t) (qRow t ⟨(o 1).val, (o 1).isLt⟩) (⟨(o 2).val, h⟩ : Fin 1024)) :=
  left_of_finds_aux m c t.val t.isLt h0 Y hF o h

/-- What a last key tile leaves in the output's buffer: the query array's entries in the features below 1024, the
    quotient of the running numerator by the running denominator in the features from 1024 on. -/
theorem leaves_last (c : Dev nD) (t : Fin cfg0.N) (h7 : t.val % 8 = 7) (X) (hL : (rel m c).Leaves 2 t X)
    (o : S1x1024x2048.Idx) :
    X o = if h : (o 2).val < 1024
      then V m c main_arg0 (ix3 (bOf t) (qRow t ⟨(o 1).val, (o 1).isLt⟩) (⟨(o 2).val, h⟩ : Fin 1024))
      else k0_pay3 (cellsAt m c t.val t.isLt).2.2 (cellsAt m c t.val t.isLt).2.1
        (ix3 (0 : Fin 1) (⟨(o 1).val, (o 1).isLt⟩ : Fin 1024)
          (⟨(o 2).val - 1024, by have h2 : (o 2).val < 2048 := (o 2).isLt; omega⟩ : Fin 1024)) := by
  obtain ⟨Y, hF, hA⟩ := hL
  rw [rel_after_out] at hA
  unfold outRel at hA
  rw [if_neg (by omega), if_pos h7] at hA
  rw [hA]
  show outLast (cellsAt m c t.val t.isLt) Y o = _
  unfold outLast
  by_cases h : (o 2).val < 1024
  · rw [dif_pos h, dif_pos h]
    exact left_of_finds m c t (by omega) Y hF o h
  · rw [dif_neg h, dif_neg h, ix_unit o]

end Attn.Out

end
-- ==== Proof.KeySets.lean ====
/-
  The key rows a running softmax has seen, tile by tile.

  The 2048 key rows are processed in 8 tiles of 256: tile `k` holds the rows `256 k + j`, `j < 256`. After the
  tiles `0 … k-1` the rows seen are those below `256 k`; tile `k` adds its own rows, disjoint from them; after all
  8 tiles every row has been seen.
-/
import proofs.«102668_j30167850287543_2_alg».proof.Proof.Spec

namespace Attn

/-- The key rows of the tiles before tile `k`. -/
def keysUpTo (k : ℕ) : Finset (Fin 2048) := Finset.univ.filter (fun j => j.val < 256 * k)

/-- Row `j` of tile `k`, as a key row. -/
def tileKey (k : ℕ) (hk : k < 8) (j : Fin 256) : Fin 2048 := ⟨256 * k + j.val, by have := j.isLt; omega⟩

theorem tileKey_val (k : ℕ) (hk : k < 8) (j : Fin 256) : (tileKey k hk j).val = 256 * k + j.val := rfl

theorem tileKey_injective (k : ℕ) (hk : k < 8) : Function.Injective (tileKey k hk) := fun a b h =>
  Fin.ext (by have h' := congrArg Fin.val h; rw [tileKey_val, tileKey_val] at h'; omega)

theorem image_tileKey (k : ℕ) (hk : k < 8) :
    Finset.univ.image (tileKey k hk) = Finset.univ.filter (fun j : Fin 2048 => 256 * k ≤ j.val ∧ j.val < 256 * (k + 1)) := by
  ext j
  simp only [Finset.mem_image, Finset.mem_univ, true_and, Finset.mem_filter]
  constructor
  · rintro ⟨a, rfl⟩
    rw [tileKey_val]
    have := a.isLt
    constructor <;> omega
  · rintro ⟨h1, h2⟩
    exact ⟨⟨j.val - 256 * k, by omega⟩, Fin.ext (by rw [tileKey_val]; show 256 * k + (j.val - 256 * k) = j.val; omega)⟩

theorem keysUpTo_succ (k : ℕ) (hk : k < 8) : keysUpTo k ∪ Finset.univ.image (tileKey k hk) = keysUpTo (k + 1) := by
  rw [image_tileKey]
  ext j
  simp only [keysUpTo, Finset.mem_union, Finset.mem_filter, Finset.mem_univ, true_and]
  omega

theorem keysUpTo_disjoint (k : ℕ) (hk : k < 8) : Disjoint (keysUpTo k) (Finset.univ.image (tileKey k hk)) := by
  rw [image_tileKey, Finset.disjoint_left]
  intro j h1 h2
  simp only [keysUpTo, Finset.mem_filter, Finset.mem_univ, true_and] at h1 h2
  omega

theorem image_tileKey_zero : Finset.univ.image (tileKey 0 (by omega)) = keysUpTo 1 := by
  rw [image_tileKey]
  ext j
  simp only [keysUpTo, Finset.mem_filter, Finset.mem_univ, true_and]
  omega

theorem keysUpTo_eight : keysUpTo 8 = Finset.univ := by
  ext j
  simp only [keysUpTo, Finset.mem_filter, Finset.mem_univ, true_and, iff_true]
  have := j.isLt
  omega

/-! ## Grid positions

Position `n` of the grid (8 batches × 2 query tiles × 8 key tiles, key tile innermost) works on batch `n / 16`, on the
query rows `1024 · ((n / 8) % 2) + r` and on the key rows `256 · (n % 8) + j`. -/

/-- The batch of grid position `n`. -/
def batchOf (n : ℕ) (h : n < 128) : Fin 8 := ⟨n / 16, by omega⟩

/-- Row `r` of the query block of grid position `n`, as a row of the query array. -/
def queryRow (n : ℕ) (r : Fin 1024) : Fin 2048 := ⟨1024 * ((n / 8) % 2) + r.val, by have := r.isLt; omega⟩

/-- Row `j` of the key tile of grid position `n`, as a row of the key array: row `j` of tile `n % 8`. -/
def keyRow (n : ℕ) (j : Fin 256) : Fin 2048 := tileKey (n % 8) (Nat.mod_lt n (by decide)) j

theorem keyRow_val (n : ℕ) (j : Fin 256) : (keyRow n j).val = 256 * (n % 8) + j.val := rfl

end Attn
-- ==== Proof.RefRow.lean ====
/-
  One row of a shifted softmax, in the reals, and the passage between sums of reals and sums of their
  images in the extended reals.

  * A finite sum of coerced reals is the coercion of the sum.
  * A maximum folded from `⊥` over a nonempty family of reals is a real: folding `max` never leaves the
    family together with the start value, and one member already lifts it above `⊥`.
  * Subtracting a real `μ` from every logit divides each weight `exp (e j)` and their total by `exp μ`, so
    the normalised weights, and with them the weighted average of the values, do not depend on `μ`:
        ∑ j, exp (e j - μ) / (∑ k, exp (e k - μ)) * v j = (∑ j, exp (e j) * v j) / ∑ j, exp (e j).
-/
import Idealize.ShloMosaic.PureOps.Ideal
import Idealize.ShloMosaic.PureOps.Ideal.Laws

noncomputable section

open scoped BigOperators

namespace Attn.Ref

open Idealize.ShloMosaic

/-- A finite sum of coerced reals is the coerced sum. -/
theorem sum_coe {ι : Type*} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- An extended real that is the image of a real is the image of its own real part. -/
theorem coe_toReal_of {v : EReal} (h : ∃ r : ℝ, v = (r : EReal)) : ((v.toReal : ℝ) : EReal) = v := by
  obtain ⟨r, rfl⟩ := h
  rw [EReal.toReal_coe]

/-- The maximum of a real and of `⊥` or a real is a real. -/
theorem max_real_of {a b : EReal} (ha : ∃ r : ℝ, a = (r : EReal)) (hb : b = ⊥ ∨ ∃ r : ℝ, b = (r : EReal)) :
    ∃ r : ℝ, max a b = (r : EReal) := by
  obtain ⟨r, rfl⟩ := ha
  rcases hb with rfl | ⟨r', rfl⟩
  · exact ⟨r, max_eq_left bot_le⟩
  · rcases le_total r r' with h | h
    · exact ⟨r', max_eq_right (EReal.coe_le_coe_iff.2 h)⟩
    · exact ⟨r, max_eq_left (EReal.coe_le_coe_iff.2 h)⟩

/-- A maximum folded from `⊥` over reals is `⊥` or a real. -/
theorem fold_max_bot_or_real {ι : Type*} (s : Finset ι) (f : ι → EReal) (hf : ∀ i, ∃ r : ℝ, f i = (r : EReal)) :
    s.fold (FloatOps.maximumf (F := Ideal) (φ := .f32)) (⊥ : EReal) f = ⊥
      ∨ ∃ r : ℝ, s.fold (FloatOps.maximumf (F := Ideal) (φ := .f32)) (⊥ : EReal) f = (r : EReal) := by
  classical
  induction s using Finset.induction_on with
  | empty => exact Or.inl (Finset.fold_empty)
  | insert a s ha ih =>
    rw [Finset.fold_insert ha]
    exact Or.inr (max_real_of (hf a) ih)

/-- A maximum folded from `⊥` over a nonempty family of reals is a real. -/
theorem fold_max_real {ι : Type*} (s : Finset ι) (hs : s.Nonempty) (f : ι → EReal)
    (hf : ∀ i, ∃ r : ℝ, f i = (r : EReal)) :
    ∃ r : ℝ, s.fold (FloatOps.maximumf (F := Ideal) (φ := .f32)) (⊥ : EReal) f = (r : EReal) := by
  classical
  obtain ⟨a, ha⟩ := hs
  rw [← Finset.insert_erase ha, Finset.fold_insert (Finset.notMem_erase a s)]
  exact max_real_of (hf a) (fold_max_bot_or_real _ f hf)

/-- The softmax weights against a shifted exponent are the unshifted ones: the weighted average of `v` with
    weights `exp (e j - μ)` is the one with weights `exp (e j)`. -/
theorem softmax_shift {ι : Type*} [Fintype ι] [Nonempty ι] (e v : ι → ℝ) (μ : ℝ) :
    ∑ j, Real.exp (e j - μ) / (∑ k, Real.exp (e k - μ)) * v j
      = (∑ j, Real.exp (e j) * v j) / ∑ j, Real.exp (e j) := by
  have hT : 0 < ∑ k, Real.exp (e k) := Finset.sum_pos (fun k _ => Real.exp_pos _) Finset.univ_nonempty
  have hμ : 0 < Real.exp μ := Real.exp_pos μ
  have hS : ∑ k, Real.exp (e k - μ) = (∑ k, Real.exp (e k)) / Real.exp μ := by
    rw [Finset.sum_div]; exact Finset.sum_congr rfl fun k _ => Real.exp_sub _ _
  rw [hS, Finset.sum_div Finset.univ (fun j => Real.exp (e j) * v j)]
  refine Finset.sum_congr rfl fun j _ => ?_
  rw [Real.exp_sub]
  field_simp

/-- The total of the shifted weights is positive, so not zero. -/
theorem sum_exp_ne_zero {ι : Type*} [Fintype ι] [Nonempty ι] (e : ι → ℝ) (μ : ℝ) :
    ∑ k, Real.exp (e k - μ) ≠ 0 :=
  (Finset.sum_pos (fun k _ => Real.exp_pos _) Finset.univ_nonempty).ne'

end Attn.Ref

end
-- ==== Proof.KernelRows.lean ====
/-
  The running cells of the attention pipeline, grid position by grid position.

  Position n of the grid works on batch n / 16, on the query rows of tile (n / 8) % 2 and on key tile n % 8, the key
  tile innermost. At a first key tile (n % 8 = 0) the cells are one update of (-∞, 0, 0) by the position's query
  block and key tile; at every other position they are one update of the cells the position before left, and that
  position has the same batch and the same query tile. So, for every row r of the query tile, the cells after
  position n are the state of a running softmax of that query row over the key rows of the tiles 0 … n % 8 of the
  batch: by induction on n, one tile at a time. After the last key tile (n % 8 = 7) all 2048 key rows have been
  seen, and numerator over denominator is the attention row.

  The blocks' entries are real because the arrays' entries are (the real part of a real entry, coerced back, is the
  entry).
-/
import proofs.«102668_j30167850287543_2_alg».proof.Proof.BodyI.Data
import proofs.«102668_j30167850287543_2_alg».proof.Proof.PayIdx
import proofs.«102668_j30167850287543_2_alg».proof.Proof.Blocks
import proofs.«102668_j30167850287543_2_alg».proof.Proof.KeySets
import proofs.«102668_j30167850287543_2_alg».proof.Proof.RefRow

set_option maxRecDepth 16384

noncomputable section

namespace Attn.KV

open Idealize.ShloMosaic Idealize.ShloMosaic.TcCoe Idealize.ShloMosaic.ValueIdx
open Idealize.SL Idealize.SL.Sem
open Cert.KernelIdeal Cert.KernelIdeal.Gen Cert.KernelIdeal.Body
open Attn Attn.Blk

variable (m : (ℓ : Loc nD τ sig) → Buf (Elt Ideal) ℓ) (c : Dev nD)

/-- The query row r of position t, as reals. -/
abbrev qOf (t : Fin cfg0.N) (r : Fin 1024) : Fin 1024 → ℝ := rowOf (V m c main_arg0) (bOf t) (qRow t r)

/-- The key rows of position t's batch, as reals. -/
abbrev kOf (t : Fin cfg0.N) : Fin 2048 → Fin 1024 → ℝ := fun j => rowOf (V m c main_arg1) (bOf t) j

/-- The tile index of a position is below 8. -/
theorem tile_lt (t : Fin cfg0.N) : t.val % 8 < 8 := Nat.mod_lt _ (by decide)

/-- Row j of position t's key tile is row j of tile t % 8. -/
theorem kRow_eq (t : Fin cfg0.N) (j : Fin 256) : kRow t j = tileKey (t.val % 8) (tile_lt t) j := Fin.ext rfl

/-- The query block of position t is real: its entries are the real parts of the array's. -/
theorem x_real (hx : ∀ a, ∃ r : ℝ, V m c main_arg0 a = (r : EReal)) (t : Fin cfg0.N) (r d : Fin 1024) :
    xAt m c t (ix3 (0 : Fin 1) r d) = ((qOf m c t r d : ℝ) : EReal) :=
  (x_block_apply m c t r d).trans (Attn.Ref.coe_toReal_of (hx _)).symm

/-- The key tile of position t is real: its rows are the rows of tile t % 8 of the batch. -/
theorem y_real (hy : ∀ a, ∃ r : ℝ, V m c main_arg1 a = (r : EReal)) (t : Fin cfg0.N) (j : Fin 256) (d : Fin 1024) :
    yAt m c t (ix3 (0 : Fin 1) j d) = ((kOf m c t (tileKey (t.val % 8) (tile_lt t) j) d : ℝ) : EReal) := by
  rw [← kRow_eq]
  exact (y_block_apply m c t j d).trans (Attn.Ref.coe_toReal_of (hy _)).symm

/-- After a first key tile the cells are the state over the first tile's key rows. -/
theorem rows_first (hx : ∀ a, ∃ r : ℝ, V m c main_arg0 a = (r : EReal))
    (hy : ∀ a, ∃ r : ℝ, V m c main_arg1 a = (r : EReal)) (t : Fin cfg0.N) (h0 : t.val % 8 = 0) (r : Fin 1024) :
    RowState (qOf m c t r) (kOf m c t) (keysUpTo (t.val % 8 + 1))
      ((cellsFirst (xAt m c t) (yAt m c t)).1 (ix2 r (0 : Fin 1)))
      ((cellsFirst (xAt m c t) (yAt m c t)).2.1 (ix2 r (0 : Fin 1)))
      (fun d => (cellsFirst (xAt m c t) (yAt m c t)).2.2 (ix2 r d)) := by
  have h := Attn.Pay.tile_first (xAt m c t) (yAt m c t) (fun r => qOf m c t r) (kOf m c t)
    (tileKey (t.val % 8) (tile_lt t)) (x_real m c hx t) (y_real m c hy t) (tileKey_injective _ _) r
  have hS : Finset.univ.image (tileKey (t.val % 8) (tile_lt t)) = keysUpTo (t.val % 8 + 1) := by
    have e := keysUpTo_succ (t.val % 8) (tile_lt t)
    have e0 : keysUpTo (t.val % 8) = ∅ := by
      rw [h0]; ext j; simp [keysUpTo]
    rw [e0, Finset.empty_union] at e
    exact e
  rw [hS] at h
  exact h

/-- After any other key tile the cells are the state over one more tile's key rows. -/
theorem rows_next (hx : ∀ a, ∃ r : ℝ, V m c main_arg0 a = (r : EReal))
    (hy : ∀ a, ∃ r : ℝ, V m c main_arg1 a = (r : EReal)) (t : Fin cfg0.N) (s : Cells Ideal) (r : Fin 1024)
    (hprev : RowState (qOf m c t r) (kOf m c t) (keysUpTo (t.val % 8))
      (s.1 (ix2 r (0 : Fin 1))) (s.2.1 (ix2 r (0 : Fin 1))) (fun d => s.2.2 (ix2 r d))) :
    RowState (qOf m c t r) (kOf m c t) (keysUpTo (t.val % 8 + 1))
      ((cellsNext (xAt m c t) (yAt m c t) s).1 (ix2 r (0 : Fin 1)))
      ((cellsNext (xAt m c t) (yAt m c t) s).2.1 (ix2 r (0 : Fin 1)))
      (fun d => (cellsNext (xAt m c t) (yAt m c t) s).2.2 (ix2 r d)) := by
  have h := Attn.Pay.tile_step (xAt m c t) (yAt m c t) (fun r => qOf m c t r) (kOf m c t)
    (tileKey (t.val % 8) (tile_lt t)) s.1 s.2.1 s.2.2 (x_real m c hx t) (y_real m c hy t)
    (tileKey_injective _ _) (keysUpTo_disjoint _ _) r hprev
  rw [keysUpTo_succ] at h
  exact h

/-- The position before a position that is not at a first key tile has the same batch and the same query tile. -/
theorem bOf_pred (n : ℕ) (hn : n < cfg0.N) (h' : n - 1 < cfg0.N) (h0 : ¬n % 8 = 0) :
    bOf ⟨n - 1, h'⟩ = bOf ⟨n, hn⟩ := Fin.ext (by show (n - 1) / 16 = n / 16; omega)
theorem qRow_pred (n : ℕ) (hn : n < cfg0.N) (h' : n - 1 < cfg0.N) (h0 : ¬n % 8 = 0) (r : Fin 1024) :
    qRow ⟨n - 1, h'⟩ r = qRow ⟨n, hn⟩ r :=
  Fin.ext (by show 1024 * (((n - 1) / 8) % 2) + r.val = 1024 * ((n / 8) % 2) + r.val; omega)

/-- The running cells after position n, row by row: the state over the key rows of the tiles 0 … n % 8. -/
theorem rows_aux (hx : ∀ a, ∃ r : ℝ, V m c main_arg0 a = (r : EReal))
    (hy : ∀ a, ∃ r : ℝ, V m c main_arg1 a = (r : EReal)) (n : ℕ) :
    ∀ (hn : n < cfg0.N) (r : Fin 1024),
      RowState (qOf m c ⟨n, hn⟩ r) (kOf m c ⟨n, hn⟩) (keysUpTo (n % 8 + 1))
        ((cellsAt m c n hn).1 (ix2 r (0 : Fin 1))) ((cellsAt m c n hn).2.1 (ix2 r (0 : Fin 1)))
        (fun d => (cellsAt m c n hn).2.2 (ix2 r d)) := by
  induction n using Nat.strong_induction_on with
  | _ n ih =>
    intro hn r
    by_cases h0 : n % 8 = 0
    · have e : cellsAt m c n hn = cellsFirst (xAt m c ⟨n, hn⟩) (yAt m c ⟨n, hn⟩) := cellsAt_first m c ⟨n, hn⟩ h0
      rw [e]
      exact rows_first m c hx hy ⟨n, hn⟩ h0 r
    · have h' : n - 1 < cfg0.N := Nat.lt_of_le_of_lt (Nat.sub_le _ _) hn
      have e : cellsAt m c n hn = cellsNext (xAt m c ⟨n, hn⟩) (yAt m c ⟨n, hn⟩) (cellsAt m c (n - 1) h') :=
        cellsAt_next m c ⟨n, hn⟩ h0
      rw [e]
      refine rows_next m c hx hy ⟨n, hn⟩ (cellsAt m c (n - 1) h') r ?_
      have hp := ih (n - 1) (by omega) h' r
      have hk : (n - 1) % 8 + 1 = n % 8 := by omega
      rw [hk] at hp
      have hb := bOf_pred n hn h' h0
      have hq := qRow_pred n hn h' h0 r
      show RowState (rowOf (V m c main_arg0) (bOf ⟨n, hn⟩) (qRow ⟨n, hn⟩ r))
        (fun j => rowOf (V m c main_arg1) (bOf ⟨n, hn⟩) j) _ _ _ _
      rw [← hb, ← hq]
      exact hp

/-- The running cells after position t, row by row: the state over the key rows of the tiles 0 … t % 8. -/
theorem rows (hx : ∀ a, ∃ r : ℝ, V m c main_arg0 a = (r : EReal))
    (hy : ∀ a, ∃ r : ℝ, V m c main_arg1 a = (r : EReal)) (t : Fin cfg0.N) (r : Fin 1024) :
    RowState (rowOf (V m c main_arg0) (bOf t) (qRow t r)) (fun j => rowOf (V m c main_arg1) (bOf t) j)
      (keysUpTo (t.val % 8 + 1))
      ((cellsAt m c t.val t.isLt).1 (ix2 r (0 : Fin 1))) ((cellsAt m c t.val t.isLt).2.1 (ix2 r (0 : Fin 1)))
      (fun d => (cellsAt m c t.val t.isLt).2.2 (ix2 r d)) :=
  rows_aux m c hx hy t.val t.isLt r

/-- After a last key tile numerator over denominator is the attention row of the query row against all key rows of
    the batch. -/
theorem last_quot (hx : ∀ a, ∃ r : ℝ, V m c main_arg0 a = (r : EReal))
    (hy : ∀ a, ∃ r : ℝ, V m c main_arg1 a = (r : EReal)) (t : Fin cfg0.N) (h7 : t.val % 8 = 7) (r d : Fin 1024) :
    k0_pay3 (cellsAt m c t.val t.isLt).2.2 (cellsAt m c t.val t.isLt).2.1 (ix3 (0 : Fin 1) r d)
      = ((attnRow (rowOf (V m c main_arg0) (bOf t) (qRow t r)) (fun j => rowOf (V m c main_arg1) (bOf t) j) d : ℝ)
          : EReal) := by
  have h := rows m c hx hy t r
  have h8 : keysUpTo (t.val % 8 + 1) = Finset.univ := by rw [h7]; exact keysUpTo_eight
  rw [h8] at h
  exact Attn.Pay.out_final (fun r => qOf m c t r) (kOf m c t) _ _ _ r d h

end Attn.KV

end
-- ==== Proof.LibRelArr.lean ====
/-
  A windowed array after the write-backs of RELATIONAL proof data, read at an index.

  Relational proof data say of each write-back only that it writes the moved part of SOME contents the body may have
  left (`RDat.ArrAt`, `RDat.ArrStep`). Suppose that at the points called `good` everything the body may leave is, cut,
  the point's block of ONE whole-array contents `G`. Then an index which a good flushing point `t` below `n` covers, and
  after which every flushing point is good, reads `G` after the write-backs below `n`: the write-backs before `t` are
  overwritten at that index, and the later ones either miss it or write `G` there again. Write-backs at points that
  are not good (a block written back before the body has stored anything into its buffer) may write anything: they are
  only required to come before the good one.
-/
import Idealize.ShloMosaic.Lib.Pipeline.Value

noncomputable section

namespace Idealize.ShloMosaic.Pipeline

open Idealize.SL Idealize.SL.RA

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An index under a good flushing point's block, every later flushing point good too, reads `G` after the
    write-backs below `n` — whatever the earlier write-backs wrote. -/
theorem RDat.arrAt_apply_of_good [∀ e, Nonempty (Val e)] (w : Fin cfg.W)
    (G : Buf Val ((cfg.win w).arr.view.loc (c.tc : Thread nD τ))) (good : Fin cfg.N → Prop)
    (hG : ∀ (t : Fin cfg.N) (X : (cfg.win w).block.Idx → Val (cfg.win w).elt), (cfg.win w).flush t = true → good t →
      rd.Leaves w t X → (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx), t.val < n →
        (cfg.win w).flush t = true → good t → i ∈ ((cfg.win w).blk t).view.set →
        (∀ t' : Fin cfg.N, t.val < t'.val → (cfg.win w).flush t' = true → good t') → F i = G i
  | 0, _, _, _, _, ht, _, _, _, _ => absurd ht (Nat.not_lt_zero _)
  | n + 1, F, hF, t, i, ht, hf, hgt, hi, hlater => by
    by_cases hn : n < cfg.N
    swap
    · -- past the grid nothing changes, and `t` is below `n`
      rw [rd.ArrAt_stable w (n + 1) (by omega), ← rd.ArrAt_stable w n (by omega)] at hF
      exact RDat.arrAt_apply_of_good w G good hG n F hF t i (by have := t.isLt; omega) hf hgt hi hlater
    rw [show n + 1 = (⟨n, hn⟩ : Fin cfg.N).val + 1 from rfl, rd.ArrAt_succ] at hF
    by_cases hfn : (cfg.win w).flush ⟨n, hn⟩ = true
    · rw [if_pos hfn] at hF
      obtain ⟨G₀, X, hG₀, hX, rfl⟩ := hF
      by_cases hin : i ∈ ((cfg.win w).blk ⟨n, hn⟩).view.setOn Finset.univ
      · -- under point `n`'s block: that point is `t` or a later flushing point, good either way
        have hgn : good ⟨n, hn⟩ := by
          by_cases e : t.val = n
          · have : t = ⟨n, hn⟩ := Fin.ext e
            exact this ▸ hgt
          · exact hlater ⟨n, hn⟩ (by show t.val < n; omega) hfn
        rw [hG _ X hfn hgn hX, View.write_read_eq_piecewise, Finset.piecewise_eq_of_mem _ _ _ hin]
      · -- not under point `n`'s block: then `t` is an earlier point
        rw [View.write_of_not_mem _ _ _ hin]
        have htn : t.val ≠ n := fun e => hin (by
          rw [View.setOn_univ]; have : t = ⟨n, hn⟩ := Fin.ext e; exact this ▸ hi)
        exact RDat.arrAt_apply_of_good w G good hG n G₀ hG₀ t i (by omega) hf hgt hi hlater
    · rw [if_neg hfn] at hF
      have htn : t.val ≠ n := fun e => hfn (by have : t = ⟨n, hn⟩ := Fin.ext e; exact this ▸ hf)
      exact RDat.arrAt_apply_of_good w G good hG n F hF t i (by omega) hf hgt hi hlater

end Idealize.ShloMosaic.Pipeline

end
-- ==== Proof.KernelValue.lean ====
/-
  The idealized kernel's result array.

  Every entry of the result array lies under the block of exactly one (batch, query tile), and that block is written
  back once, after the LAST key tile of the pair. What is written back then is, in features below 1024, the query
  block — stored at the first key tile and kept since — and, in features from 1024 on, the running numerator over the
  running denominator, which after all eight key tiles is the attention row. So block by block the written-back
  contents are the blocks of ONE array, `Attn.G x y`; earlier write-backs do not reach an entry's block and later
  ones do not either, hence the array after the run is `Attn.G x y`.
-/
import proofs.«102668_j30167850287543_2_alg».proof.Proof.BodyI.Obligation
import proofs.«102668_j30167850287543_2_alg».proof.Proof.Blocks
import proofs.«102668_j30167850287543_2_alg».proof.Proof.OutBlock
import proofs.«102668_j30167850287543_2_alg».proof.Proof.KernelRows
import proofs.«102668_j30167850287543_2_alg».proof.Proof.LibRelArr

set_option maxRecDepth 16384

noncomputable section

namespace Attn.KV

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (RDat)

variable (m : (ℓ : Loc nD τ sig) → Buf (Elt Ideal) ℓ) (ρ : Dev nD → PrngReg)

/-- The result array as a function of the argument arrays the region finds. -/
abbrev result (c : Dev nD) : Buf (Elt Ideal) ((cfg0.win 2).arr.view.loc (c.tc : Thread nD τ)) :=
  Attn.G (V m c main_arg0) (V m c main_arg1)

/-- What a write-back of the output window writes is the block of `result` there. -/
theorem written_back (c : Dev nD) (hx : ∀ a, ∃ r : ℝ, V m c main_arg0 a = (r : EReal))
    (hy : ∀ a, ∃ r : ℝ, V m c main_arg1 a = (r : EReal)) (t : Fin cfg0.N)
    (X : (cfg0.win 2).block.Idx → Elt Ideal (cfg0.win 2).elt)
    (hfl : (cfg0.win 2).flush t = true) (hL : (rel m c).Leaves 2 t X) :
    (cfg0.win 2).cut (cfg0.grid.coords t) X = ((cfg0.win 2).blk t).view.read (Elt Ideal) (result m c) := by
  have h7 : t.val % 8 = 7 := (flush0_2 t).mp hfl
  rw [Attn.Blk.out_cut]
  funext o
  rw [Attn.Blk.out_block_read, Attn.Out.leaves_last m c t h7 X hL o]
  have h2 : (o 2).val < 2048 := (o 2).isLt
  by_cases h : (o 2).val < 1024
  · rw [dif_pos h]
    show _ = Attn.G _ _ _
    unfold Attn.G
    rw [dif_pos (show ((ix3 (Attn.Blk.bOf t) (Attn.Blk.qRow t ⟨(o 1).val, (o 1).isLt⟩) (⟨(o 2).val, (o 2).isLt⟩ : Fin 2048)) 2).val < 1024 from h)]
  · rw [dif_neg h]
    show _ = Attn.G _ _ _
    unfold Attn.G
    rw [dif_neg (show ¬((ix3 (Attn.Blk.bOf t) (Attn.Blk.qRow t ⟨(o 1).val, (o 1).isLt⟩) (⟨(o 2).val, (o 2).isLt⟩ : Fin 2048)) 2).val < 1024 from h)]
    exact Attn.KV.last_quot m c hx hy t h7 ⟨(o 1).val, (o 1).isLt⟩ ⟨(o 2).val - 1024, by omega⟩

/-- Whatever the output array holds after every write-back, it is `result`. -/
theorem final_eq (c : Dev nD) (hx : ∀ a, ∃ r : ℝ, V m c main_arg0 a = (r : EReal))
    (hy : ∀ a, ∃ r : ℝ, V m c main_arg1 a = (r : EReal))
    (Fm : Buf (Elt Ideal) ((cfg0.win 2).arr.view.loc (c.tc : Thread nD τ))) (hF : (rel m c).ArrAt 2 cfg0.N Fm) :
    Fm = result m c := by
  funext i
  obtain ⟨hfl, hmem⟩ := Attn.Blk.out_cover i
  exact RDat.arrAt_apply_of_good (rel m c) 2 (result m c) (fun _ => True)
    (fun t X hfl' _ hL => written_back m c hx hy t X hfl' hL) cfg0.N Fm hF (Attn.Blk.coverPt i) i
    (Attn.Blk.coverPt i).isLt hfl trivial hmem (fun _ _ _ => trivial)

/-- The idealized kernel's run, with its result named: on finite arguments every weakly fair execution terminates with
    the result array at `Attn.G` of the argument arrays and the argument arrays unchanged. -/
theorem kernel_run
    (hfin : ∀ c : Dev nD, (∀ a, ∃ r : ℝ, V m c main_arg0 a = (r : EReal)) ∧ (∀ a, ∃ r : ℝ, V m c main_arg1 a = (r : EReal))) :
    θ_run (defs (F := Ideal)) (onTc (τ := τ) (main (F := Ideal))) ⟨m, fun _ => 0, ρ⟩ (fun r => ∀ c : Dev nD,
      r.2.mem ((c.tc : Thread nD τ).loc main_v0)
        = Attn.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨final_eq m c (hfin c).1 (hfin c).2 _ ((h c).1 2),
     (Eq.mp (congrFun ((rel m c).ArrAt_in 0 rfl _) _) ((h c).1 0)).trans ((rel_A m c 0).trans (V_main_arg0 m c)),
     (Eq.mp (congrFun ((rel m c).ArrAt_in 1 rfl _) _) ((h c).1 1)).trans ((rel_A m c 1).trans (V_main_arg1 m c))⟩)
    (Cert.KernelIdeal.Body.run_rel (F := Ideal) m ρ)

end Attn.KV

end
-- ==== Proof.RefValue.lean ====
/-
  The reference's last stage is the specification `Attn.G`, when every entry of both arrays is a real.

  The reference forms the logits `e j = ⟨q, K j⟩` of a query row against every key row, subtracts from them
  the row's maximum (taken from `-∞`, and so SOME real `μ` — which one is never used), exponentiates, sums the
  weights from 0, divides each weight by that total and contracts the normalised weights with the key rows
  (which are the value rows); the result is placed behind the query array along the feature axis.
  Read index by index, and with every quantity a real, feature `d` of the contracted row is
      ∑ j, exp (e j - μ) / (∑ k, exp (e k - μ)) * K j d,
  which is the unshifted quotient `attnRow` of the specification.
-/
import proofs.«102668_j30167850287543_2_alg».proof.Proof.Gen.ReferenceIdeal.Read
import proofs.«102668_j30167850287543_2_alg».proof.Proof.Spec
import proofs.«102668_j30167850287543_2_alg».proof.Proof.RefRow

noncomputable section

open scoped BigOperators

namespace Attn.Ref

open Idealize.ShloMosaic Idealize.ShloMosaic.ValueIdx
open Cert.ReferenceIdeal Cert.ReferenceIdeal.Gen Cert.ReferenceIdeal.Read

/-- The type of the two argument arrays. -/
abbrev Arr : Type := (⟨S8x2048x1024, .f32⟩ : BufTy).Contents (Elt Ideal)

/-- The logit of query row `i` against key row `j` in batch `b`. -/
def logit (x y : Arr) (b : Fin 8) (i j : Fin 2048) : ℝ := dotRow (rowOf x b i) (rowOf y b j)

/-- The word `0xFF800000` denotes `-∞`. -/
theorem neg_inf_word : Ideal.ofBits .f32 0xFF800000#32 = (⊥ : EReal) := by
  simp [Ideal.ofBits, Ideal.ieee]

section
variable (x y : Arr) (hx : ∀ a, ∃ r : ℝ, x a = (r : EReal)) (hy : ∀ a, ∃ r : ℝ, y a = (r : EReal))
include hx hy

/-- The first contraction at an index is the logit of that row pair. -/
theorem v0_eq (jj : S8x2048x2048.Idx) :
    val_main_v0 (F := Ideal) x y jj = ((logit x y (jj 0) (jj 1) (jj 2) : ℝ) : EReal) := by
  rw [val_main_v0_apply]
  unfold logit dotRow
  rw [← sum_coe]
  refine Finset.sum_congr rfl fun k _ => ?_
  have e1 : lidx_main_v0 jj k = ix3 (jj 0) (jj 1) k :=
    funext fun a => by match a with | ⟨0, _⟩ => rfl | ⟨1, _⟩ => rfl | ⟨2, _⟩ => rfl
  have e2 : ridx_main_v0 jj k = ix3 (jj 0) (jj 2) k :=
    funext fun a => by match a with | ⟨0, _⟩ => rfl | ⟨1, _⟩ => rfl | ⟨2, _⟩ => rfl
  rw [e1, e2, EReal.coe_mul]
  show _ = (((x (ix3 (jj 0) (jj 1) k)).toReal : ℝ) : EReal) * (((y (ix3 (jj 0) (jj 2) k)).toReal : ℝ) : EReal)
  rw [coe_toReal_of (hx _), coe_toReal_of (hy _)]
  rfl

/-- The row maximum, taken from `-∞` over 2048 real logits and once more against `-∞`, is a real. -/
theorem v3_real (i2 : S8x2048.Idx) : ∃ μ : ℝ, val_main_v3 (F := Ideal) x y i2 = (μ : EReal) := by
  have h1 : ∃ μ : ℝ, val_main_v1 (F := Ideal) x y i2 = (μ : EReal) := by
    unfold val_main_v1
    rw [Host.reduce_eq_fold_single FloatOps.maximumf _ _ reducesTo_S8x2048x2048_S8x2048_d2 (by decide) h_S_ i2,
      val_main_cst_apply, Ideal.ofBits_def, neg_inf_word]
    exact fold_max_real _ ⟨(⟨0, by decide⟩ : Fin (S8x2048x2048.size 2)), Finset.mem_univ _⟩ _
      (fun k => ⟨_, v0_eq x y hx hy _⟩)
  obtain ⟨μ, h⟩ := h1
  refine ⟨μ, ?_⟩
  rw [val_main_v3_apply, val_main_v2_apply, val_main_cst_0_apply, h, Ideal.ofBits_def, neg_inf_word]
  exact max_eq_right bot_le

end

/-- The real shift of row `i` of batch `b`: the real part of the reference's row maximum. -/
def shift (x y : Arr) (b : Fin 8) (i : Fin 2048) : ℝ := (val_main_v3 (F := Ideal) x y (ix2 b i)).toReal

section
variable (x y : Arr) (hx : ∀ a, ∃ r : ℝ, x a = (r : EReal)) (hy : ∀ a, ∃ r : ℝ, y a = (r : EReal))
include hx hy

/-- The row maximum is the coercion of the shift. -/
theorem v3_eq (i2 : S8x2048.Idx) :
    val_main_v3 (F := Ideal) x y i2 = ((shift x y (i2 0) (i2 1) : ℝ) : EReal) := by
  have h := coe_toReal_of (v3_real x y hx hy (ix2 (i2 0) (i2 1)))
  calc val_main_v3 (F := Ideal) x y i2 = val_main_v3 (F := Ideal) x y (ix2 (i2 0) (i2 1)) := congrArg _ (eq_ix2 i2)
    _ = _ := h.symm

/-- A weight: the exponential of the shifted logit. -/
theorem v7_eq (jj : S8x2048x2048.Idx) :
    val_main_v7 (F := Ideal) x y jj
      = ((Real.exp (logit x y (jj 0) (jj 1) (jj 2) - shift x y (jj 0) (jj 1)) : ℝ) : EReal) := by
  rw [val_main_v7_apply, val_main_v6_apply, val_main_v5_apply, val_main_v4_apply, v3_eq x y hx hy, v0_eq x y hx hy,
    Ideal.hostUnary_exp_def, Ideal.subf_def]
  show Ideal.exp (((logit x y (jj 0) (jj 1) (jj 2) : ℝ) : EReal) - ((shift x y (jj 0) (jj 1) : ℝ) : EReal)) = _
  rw [← EReal.coe_sub]
  rfl

/-- A row's total weight. -/
theorem v8_eq (i2 : S8x2048.Idx) :
    val_main_v8 (F := Ideal) x y i2
      = ((∑ k : Fin 2048, Real.exp (logit x y (i2 0) (i2 1) k - shift x y (i2 0) (i2 1)) : ℝ) : EReal) := by
  rw [val_main_v8_apply, val_main_cst_1_apply, Ideal.ofBits_def, Ideal.ofBits_zero_f32, zero_add, ← sum_coe]
  refine Finset.sum_congr rfl fun k _ => ?_
  rw [v7_eq x y hx hy]
  rfl

/-- A normalised weight. -/
theorem v11_eq (jj : S8x2048x2048.Idx) :
    val_main_v11 (F := Ideal) x y jj
      = ((Real.exp (logit x y (jj 0) (jj 1) (jj 2) - shift x y (jj 0) (jj 1))
          / ∑ k : Fin 2048, Real.exp (logit x y (jj 0) (jj 1) k - shift x y (jj 0) (jj 1)) : ℝ) : EReal) := by
  rw [val_main_v11_apply, val_main_v10_apply, val_main_v9_apply, v8_eq x y hx hy, v7_eq x y hx hy, Ideal.hostDivf_def]
  have hS : (∑ k : Fin 2048, Real.exp (logit x y (jj 0) (jj 1) k - shift x y (jj 0) (jj 1))) ≠ 0 :=
    sum_exp_ne_zero _ _
  show Ideal.div ((Real.exp (logit x y (jj 0) (jj 1) (jj 2) - shift x y (jj 0) (jj 1)) : ℝ) : EReal)
      ((∑ k : Fin 2048, Real.exp (logit x y (jj 0) (jj 1) k - shift x y (jj 0) (jj 1)) : ℝ) : EReal) = _
  rw [Ideal.div_coe hS, ← EReal.coe_mul, mul_one_div]

/-- The second contraction at an index is the specification's attention row. -/
theorem v12_eq (i' : S8x2048x1024.Idx) :
    val_main_v12 (F := Ideal) x y i'
      = ((attnRow (rowOf x (i' 0) (i' 1)) (fun j => rowOf y (i' 0) j) (i' 2) : ℝ) : EReal) := by
  rw [val_main_v12_apply,
    show attnRow (rowOf x (i' 0) (i' 1)) (fun j => rowOf y (i' 0) j) (i' 2)
        = ∑ j : Fin 2048, Real.exp (logit x y (i' 0) (i' 1) j - shift x y (i' 0) (i' 1))
            / (∑ k : Fin 2048, Real.exp (logit x y (i' 0) (i' 1) k - shift x y (i' 0) (i' 1))) * rowOf y (i' 0) j (i' 2)
      from (softmax_shift (fun j : Fin 2048 => logit x y (i' 0) (i' 1) j) (fun j => rowOf y (i' 0) j (i' 2))
        (shift x y (i' 0) (i' 1))).symm,
    ← sum_coe]
  refine Finset.sum_congr rfl fun j _ => ?_
  have e2 : ridx_main_v12 i' j = ix3 (i' 0) j (i' 2) :=
    funext fun a => by match a with | ⟨0, _⟩ => rfl | ⟨1, _⟩ => rfl | ⟨2, _⟩ => rfl
  rw [v11_eq x y hx hy, e2, EReal.coe_mul]
  show _ = _ * (((y (ix3 (i' 0) j (i' 2))).toReal : ℝ) : EReal)
  rw [coe_toReal_of (hy _)]
  rfl

/-- The reference's result is the specification: the query array in the first 1024 features, the attention rows in
    the last 1024. -/
theorem val_eq_G : val_main_v13 (F := Ideal) x y = Attn.G x y := by
  funext o
  unfold val_main_v13 Attn.G
  by_cases h : (o 2).val < 1024
  · rw [dif_pos h]
    exact concatenate_pair_apply_left 2 x _ concatenates_S8x2048x1024_S8x2048x1024_S8x2048x2048_d2 o rfl
      (ix3 (o 0) (o 1) ⟨(o 2).val, h⟩) (fun b => by match b with | ⟨0, _⟩ => rfl | ⟨1, _⟩ => rfl | ⟨2, _⟩ => rfl)
  · rw [dif_neg h]
    have h2 : (o 2).val < 2048 := (o 2).isLt
    rw [concatenate_pair_apply_right 2 x _ concatenates_S8x2048x1024_S8x2048x1024_S8x2048x2048_d2 o rfl rfl
      (ix3 (o 0) (o 1) (⟨(o 2).val - 1024, by omega⟩ : Fin 1024))
      (fun b hb => by
        match b, hb with
        | ⟨0, _⟩, _ => rfl
        | ⟨1, _⟩, _ => rfl
        | ⟨2, _⟩, hb => exact absurd rfl hb)
      (by show (o 2).val - 1024 + 1024 = (o 2).val; omega)]
    exact v12_eq x y hx hy _

end

end Attn.Ref

end
-- ==== Proof.Finite.lean ====
/-
  From the finiteness precondition to "every entry is a real".

  The precondition computes, for each of the two argument arrays, the conjunction over all entries of
  `|v| < +∞`, and then the conjunction of the two. When that word is 1, every entry `v` of either array
  satisfies `max v (-v) < ⊤` in the extended reals, which excludes both `⊤` (where `max ⊤ ⊥ = ⊤`) and `⊥`
  (where `max ⊥ ⊤ = ⊤`): the entry is a real number.
-/
import proofs.«102668_j30167850287543_2_alg».proof.Pre_finite_inputs
import Idealize.ShloMosaic.PureOps.Ideal
import Idealize.ShloMosaic.Lib.ValueIdx
import Idealize.ShloMosaic.Lib.ReduceAll

noncomputable section

namespace Attn.Fin

open Idealize.ShloMosaic Idealize.ShloMosaic.ValueIdx

/-- The scalar shape has one index. -/
instance : Subsingleton Cert.Pre_finite_inputs.S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value compares below `+∞` is a real. -/
theorem real_of_abs_lt (v : EReal)
    (h : Ideal.cmp .olt (max v (-v)) (Ideal.ofBits .f32 0x7F800000#32) = 1#1) : ∃ r : ℝ, v = (r : EReal) := by
  rw [inf_word] at h
  induction v using EReal.rec with
  | bot => simp [Ideal.cmp] at h
  | coe r => exact ⟨r, rfl⟩
  | top => simp [Ideal.cmp] at h

variable [Cert.Pre_finite_inputs.Facts]

/-- One array's `all (|v| < +∞)` being 1 makes every entry a real. -/
theorem real_of_all (x : FVec Ideal Cert.Pre_finite_inputs.S8x2048x1024 .f32) (init : IVec Cert.Pre_finite_inputs.S_ 1)
    (h : Host.reduce IntOp.andi
        (cmpf .olt (Host.absf x)
          (broadcastInDim Cert.Pre_finite_inputs.S8x2048x1024 ![] Cert.Pre_finite_inputs.Facts.bcast_S_S8x2048x1024
            (constant (F := Ideal) Cert.Pre_finite_inputs.S_ .f32 0x7F800000#32)))
        init Cert.Pre_finite_inputs.Facts.reducesTo_S8x2048x1024_S_d0_1_2 Cert.Pre_finite_inputs.Facts.h_S_ ix0 = 1#1)
    (a : Cert.Pre_finite_inputs.S8x2048x1024.Idx) : ∃ r : ℝ, x a = (r : EReal) :=
  real_of_abs_lt (x a) (Host.reduce_andi_all _ init _ _ ix0 h a)

/-- The precondition being all ones makes every entry of both argument arrays a real. -/
theorem finite_of_pre (x y : FVec Ideal Cert.Pre_finite_inputs.S8x2048x1024 .f32)
    (h : Cert.Pre_finite_inputs.fn (F := Ideal) x y = (fun _ => 1#1)) :
    (∀ a, ∃ r : ℝ, x a = (r : EReal)) ∧ (∀ a, ∃ r : ℝ, y a = (r : EReal)) := by
  have h0 := congrFun h ix0
  dsimp only [Cert.Pre_finite_inputs.fn] at h0
  obtain ⟨hx, hy⟩ := IntOp.andi_eq_one.1 h0
  exact ⟨real_of_all x _ hx, real_of_all y _ hy⟩

end Attn.Fin

end
-- ==== Proof.lean ====
/-
  Unscaled attention concatenated behind its queries: a one-pass, tiled kernel against the two-pass reference.

  Both programs compute, for x, y : f32[8, 2048, 1024], the array  out = concat (x, softmax (x yᵀ) y)  along the feature
  axis. The reference forms all 2048 logits of a query row, subtracts their maximum, exponentiates, normalises and
  contracts with y. The kernel walks a grid (batch, query tile of 1024 rows, key tile of 256 rows) and keeps, per query
  row, a running maximum m, a running denominator l and a running numerator acc: at each key tile it raises m to the
  new maximum m', rescales l and acc by exp (m - m') and adds the tile's exp (logit - m') and exp (logit - m') · y;
  at the first key tile it starts from (-inf, 0, 0) and copies the query block into the first half of the output
  block, at the last it stores acc / l into the second half.

  At the ideal instance both are the same function. A sum of terms exp (e_j - μ) · v_j divided by the sum of the
  exp (e_j - μ) does not depend on the real shift μ (numerator and denominator carry the same factor exp (-μ)), so the
  reference's row maximum and the kernel's running maximum are both just "some real"; the rescaling by exp (m - m')
  turns the sums shifted by m into the sums shifted by m' (exp (m - m') · exp (e - m) = exp (e - m')); and at the
  first tile exp (-inf - m') = 0 annihilates the zero cells. All of this is algebra of real numbers, which is why the
  precondition (every input entry finite) is used: the logits and every cell after the first tile are reals.

  The frames: the kernel body is run in three control cases (first, middle, last key tile), the cells carried from
  point to point as named contents, the output's staging buffer constrained by a relation (it is only partly stored
  into at a point). The same body proof serves the word-level kernel and its idealization; the reference's frame is
  its run with the result dropped. The idealization rewrote nothing, so `preserves` has no conjunct.
-/
import proofs.«102668_j30167850287543_2_alg».proof.Defs
import proofs.«102668_j30167850287543_2_alg».proof.Proof.Gen.Kernel
import proofs.«102668_j30167850287543_2_alg».proof.Proof.Gen.KernelIdeal
import proofs.«102668_j30167850287543_2_alg».proof.Proof.Gen.ReferenceIdeal
import proofs.«102668_j30167850287543_2_alg».proof.Proof.Gen.Pre_finite_inputs
import proofs.«102668_j30167850287543_2_alg».proof.Proof.Gen.ReferenceIdeal.Run
import proofs.«102668_j30167850287543_2_alg».proof.Proof.Gen.ReferenceIdeal.Read
import proofs.«102668_j30167850287543_2_alg».proof.Proof.BodyW.Obligation
import proofs.«102668_j30167850287543_2_alg».proof.Proof.KernelValue
import proofs.«102668_j30167850287543_2_alg».proof.Proof.RefValue
import proofs.«102668_j30167850287543_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite arguments that agree, the idealized kernel and the idealized reference both end with the result array
    at `Attn.G` of the arguments. -/
theorem algebraic : Cert.algebraic_KernelIdeal_ReferenceIdeal := by
  intro m ρ m' ρ' hpre hagree
  refine ⟨_, Attn.KV.kernel_run m ρ (fun c => Attn.Fin.finite_of_pre _ _ (hpre c)), ?_⟩
  refine (θ_run Cert.ReferenceIdeal.defs _ _).mono (fun _ h c => ⟨(h c).1.trans ?_, (h c).2⟩)
    (Cert.ReferenceIdeal.Value.run (F := Ideal) m' ρ')
  have hfin := Attn.Fin.finite_of_pre _ _ (hpre c)
  rw [Cert.ReferenceIdeal.Read.val_main_v13_eq, (hagree c).1, (hagree c).2]
  exact Attn.Ref.val_eq_G _ _ hfin.1 hfin.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
